-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S16384x1024 : Shape := ⟨2, ![16384, 1024]⟩
abbrev S512x1024 : Shape := ⟨2, ![512, 1024]⟩
abbrev S512x3072 : Shape := ⟨2, ![512, 3072]⟩
abbrev S1x3072 : Shape := ⟨2, ![1, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x3072, .f32⟩
  | .hbm, ⟨8, _⟩ => ⟨S1024x3072, .bf16⟩
  | .hbm, ⟨9, _⟩ => ⟨S3072, .f32⟩
  | .hbm, ⟨10, _⟩ => ⟨S16384x1024, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S8x2048x1024, .bf16⟩
  | .hbm, ⟨15, _⟩ => ⟨S8x2048x1024, .bf16⟩
  | .hbm, ⟨16, _⟩ => ⟨S8x2048x1024, .bf16⟩
  | .hbm, ⟨17, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x512x1024, .f32⟩
  | .local _ .vmem, ⟨15, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelBody0.lean ====
/-
  The projection kernel's region, entered with the TensorCore's buffers at contents `V`: at grid point `t` the body
  reads a 512-row block of the flattened input, the whole joined weight matrix and the whole joined bias, and leaves in
  each of the three output staging buffers one 1024-column slice of `x·W + b`. This module states what each buffer
  holds after the body as a function of the three input blocks, runs the body once on symbolic buffers, and packages
  the result as the pipeline's proof data and body obligation.
-/
import proofs.«172001_j21887153340534_2_alg».proof.Proof.Gen.Kernel.Launch
import proofs.«172001_j21887153340534_2_alg».proof.Proof.Gen.Kernel.Skeleton
import proofs.«172001_j21887153340534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is a whole buffer. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0

/-- What the body leaves in each output window's buffer, from the input blocks: its one store. -/
def out0_3 (x0 : Vec F S512x1024 .f32) (x1 : Vec F S1024x3072 .bf16) (x2 : Vec F S3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S3072 .f32) : Vec F S512x1024 .bf16 :=
  View.canon [⟨r0_x, k0_pay4 (View.ld x0 r0_x) (View.ld x1 r0_w) (View.ld x2 r0_b)⟩]

/-- The one store covers the buffer. -/
theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at
    point `t` each input's buffer at its block and each output's at `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelBody1.lean ====
/-
  The attention kernel's region, entered with the TensorCore's buffers at contents `V`: at grid point `t` the body
  reads a 512-row block of the queries of one batch entry and that entry's whole key and value matrices, and leaves in
  the output staging buffer the 512 attention rows. This module states what the buffer holds after the body as a
  function of the three input blocks, runs the body once on symbolic buffers, and packages the result as the pipeline's
  proof data and body obligation.
-/
import proofs.«172001_j21887153340534_2_alg».proof.Proof.Gen.Kernel.Launch
import proofs.«172001_j21887153340534_2_alg».proof.Proof.Gen.Kernel.Skeleton
import proofs.«172001_j21887153340534_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is a whole buffer. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0

/-- What the body leaves in the output window's buffer, from the input blocks: its one store. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_k) (View.ld x2 r1_k)⟩]

/-- The one store covers the buffer. -/
theorem cover1_o (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole staging memrefs, the inputs' at contents `xW` and the output's at anything, runs to the
    continuation holding the inputs' as they were and the output's at `out1_3` of the inputs'. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_o _)

/-- The proof data of the attention pipeline on core `c`: the arrays as the region finds them; after the body at
    point `t` each input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The whole run of @main: the host operations that join the weights and flatten the input, the projection region, the
  three reshapes, the attention region. The TensorCore's buffer contents at each boundary are a fold from the launch
  memory: a host stretch applies its operations; a region leaves its arrays at what the pipeline's write-backs fold
  to and every other buffer as it found it. Each region is a segment between "every unscoped buffer at the boundary's
  contents, the generator register at some state, nothing owed"; the launch theorem for a list of segments then says
  that every weakly fair execution terminates without a fault with every unscoped buffer at the last boundary's
  contents. No host operation and no region writes an argument, so each argument ends as launched.
-/
import proofs.«172001_j21887153340534_2_alg».proof.Proof.Gen.Kernel.Launch
import proofs.«172001_j21887153340534_2_alg».proof.Proof.Gen.Kernel.Skeleton
import proofs.«172001_j21887153340534_2_alg».proof.Proof.Gen.Kernel.Points
import proofs.«172001_j21887153340534_2_alg».proof.Proof.KernelBody0
import proofs.«172001_j21887153340534_2_alg».proof.Proof.KernelBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

local macro "writes_tac" : tactic => `(tactic| (simp only [StableHlo.unary_writes, StableHlo.reshape_writes, StableHlo.nary_writes, Finset.singleton_subset_iff, List.mem_toFinset]; exact List.mem_map_of_mem (by decide)))

/-- The buffers the first host stretch writes: the joined weights, their narrowed copy, the joined bias, the flattened input. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by writes_tac, by writes_tac, by writes_tac, by writes_tac⟩
theorem hostOps0_fresh : (hostOps0 : List (HloOp τ sig (Elt F))).Forall fun op => op.fresh = ∅ := by
  simp only [List.Forall]; repeat' constructor
/-- The buffers the second host stretch writes: the three projections reshaped to [8, 2048, 1024]. -/
abbrev hostOps1_W : List (Ref sig .tc) := [main_v5, main_v6, main_v7]
theorem hostOps1_writes : (hostOps1 : List (HloOp τ sig (Elt F))).Forall fun op => op.writes ⊆ (hostOps1_W.map (Proc.devRef (τ := τ) .tc)).toFinset := by
  simp only [List.Forall]; exact ⟨by writes_tac, by writes_tac, by writes_tac⟩
theorem hostOps1_fresh : (hostOps1 : List (HloOp τ sig (Elt F))).Forall fun op => op.fresh = ∅ := by
  simp only [List.Forall]; repeat' constructor

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

end Cert.Kernel.Hand

end
-- ==== Proof.KernelIdealBody0.lean ====
/-
  The projection kernel's region, entered with the TensorCore's buffers at contents `V`: at grid point `t` the body
  reads a 512-row block of the flattened input, the whole joined weight matrix and the whole joined bias, and leaves in
  each of the three output staging buffers one 1024-column slice of `x·W + b`. This module states what each buffer
  holds after the body as a function of the three input blocks, runs the body once on symbolic buffers, and packages
  the result as the pipeline's proof data and body obligation.
-/
import proofs.«172001_j21887153340534_2_alg».proof.Proof.Gen.KernelIdeal.Launch
import proofs.«172001_j21887153340534_2_alg».proof.Proof.Gen.KernelIdeal.Skeleton
import proofs.«172001_j21887153340534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: each is a whole buffer. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S3072 := Rect.unit (s := S3072) ![0] S3072.size inb_S3072_S3072_0

/-- What the body leaves in each output window's buffer, from the input blocks: its one store. -/
def out0_3 (x0 : Vec F S512x1024 .f32) (x1 : Vec F S1024x3072 .bf16) (x2 : Vec F S3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S3072 .f32) : Vec F S512x1024 .bf16 :=
  View.canon [⟨r0_x, k0_pay4 (View.ld x0 r0_x) (View.ld x1 r0_w) (View.ld x2 r0_b)⟩]

/-- The one store covers the buffer. -/
theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging memrefs, the inputs' at contents `xW` and the outputs' at anything, runs to the
    continuation holding the inputs' as they were and each output's at `out0_W` of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-- The proof data of the projection pipeline on core `c`: the arrays as the region finds them; after the body at
    point `t` each input's buffer at its block and each output's at `out0_W` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealBody1.lean ====
/-
  The attention kernel's region, entered with the TensorCore's buffers at contents `V`: at grid point `t` the body
  reads a 512-row block of the queries of one batch entry and that entry's whole key and value matrices, and leaves in
  the output staging buffer the 512 attention rows. This module states what the buffer holds after the body as a
  function of the three input blocks, runs the body once on symbolic buffers, and packages the result as the pipeline's
  proof data and body obligation.
-/
import proofs.«172001_j21887153340534_2_alg».proof.Proof.Gen.KernelIdeal.Launch
import proofs.«172001_j21887153340534_2_alg».proof.Proof.Gen.KernelIdeal.Skeleton
import proofs.«172001_j21887153340534_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: each is a whole buffer. -/
abbrev r1_q : Rect S1x512x1024 := Rect.unit (s := S1x512x1024) ![0, 0, 0] S1x512x1024.size inb_S1x512x1024_S1x512x1024_0_0_0
abbrev r1_k : Rect S1x2048x1024 := Rect.unit (s := S1x2048x1024) ![0, 0, 0] S1x2048x1024.size inb_S1x2048x1024_S1x2048x1024_0_0_0

/-- What the body leaves in the output window's buffer, from the input blocks: its one store. -/
def out1_3 (x0 : Vec F S1x512x1024 .bf16) (x1 : Vec F S1x2048x1024 .bf16) (x2 : Vec F S1x2048x1024 .bf16) : Vec F S1x512x1024 .f32 :=
  View.canon [⟨r1_q, k1_pay1 (View.ld x0 r1_q) (View.ld x1 r1_k) (View.ld x2 r1_k)⟩]

/-- The one store covers the buffer. -/
theorem cover1_o (p0 : Vec F S1x512x1024 .f32) (y : S1x512x1024.Idx) :
    ∃ pc ∈ ([⟨r1_q, p0⟩] : List (View.Piece (Elt F) S1x512x1024 .f32)), y ∈ pc.1.set :=
  View.cover_of_tiled [⟨r1_q, p0⟩] S1x512x1024.size (by rfl) y

set_option maxHeartbeats 1000000 in
/-- The body on whole staging memrefs, the inputs' at contents `xW` and the output's at anything, runs to the
    continuation holding the inputs' as they were and the output's at `out1_3` of the inputs'. -/
theorem sound_kernel1 (c : Dev nD) (E : Set ℕ) (i : grid1.Coords) (arg2 : Memref sig .tc .vmem S1x512x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_o _)

/-- The proof data of the attention pipeline on core `c`: the arrays as the region finds them; after the body at
    point `t` each input's buffer at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The whole run of @main: the host operations that join the weights and flatten the input, the projection region, the
  three reshapes, the attention region. The TensorCore's buffer contents at each boundary are a fold from the launch
  memory: a host stretch applies its operations; a region leaves its arrays at what the pipeline's write-backs fold
  to and every other buffer as it found it. Each region is a segment between "every unscoped buffer at the boundary's
  contents, the generator register at some state, nothing owed"; the launch theorem for a list of segments then says
  that every weakly fair execution terminates without a fault with every unscoped buffer at the last boundary's
  contents. No host operation and no region writes an argument, so each argument ends as launched.
-/
import proofs.«172001_j21887153340534_2_alg».proof.Proof.Gen.KernelIdeal.Launch
import proofs.«172001_j21887153340534_2_alg».proof.Proof.Gen.KernelIdeal.Skeleton
import proofs.«172001_j21887153340534_2_alg».proof.Proof.Gen.KernelIdeal.Points
import proofs.«172001_j21887153340534_2_alg».proof.Proof.KernelIdealBody0
import proofs.«172001_j21887153340534_2_alg».proof.Proof.KernelIdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

local macro "writes_tac" : tactic => `(tactic| (simp only [StableHlo.unary_writes, StableHlo.reshape_writes, StableHlo.nary_writes, Finset.singleton_subset_iff, List.mem_toFinset]; exact List.mem_map_of_mem (by decide)))

/-- The buffers the first host stretch writes: the joined weights, their narrowed copy, the joined bias, the flattened input. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]; exact ⟨by writes_tac, by writes_tac, by writes_tac, by writes_tac⟩
theorem hostOps0_fresh : (hostOps0 : List (HloOp τ sig (Elt F))).Forall fun op => op.fresh = ∅ := by
  simp only [List.Forall]; repeat' constructor
/-- The buffers the second host stretch writes: the three projections reshaped to [8, 2048, 1024]. -/
abbrev hostOps1_W : List (Ref sig .tc) := [main_v5, main_v6, main_v7]
theorem hostOps1_writes : (hostOps1 : List (HloOp τ sig (Elt F))).Forall fun op => op.writes ⊆ (hostOps1_W.map (Proc.devRef (τ := τ) .tc)).toFinset := by
  simp only [List.Forall]; exact ⟨by writes_tac, by writes_tac, by writes_tac⟩
theorem hostOps1_fresh : (hostOps1 : List (HloOp τ sig (Elt F))).Forall fun op => op.fresh = ∅ := by
  simp only [List.Forall]; repeat' constructor

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

end Cert.KernelIdeal.Hand

end
-- ==== Proof.KernelIdealEntry.lean ====
/-
  What the host operations leave in the buffers the two kernels read. Before the projection region: the input
  flattened from [8, 2048, 1024] to [16384, 1024] rows, the three weight matrices laid side by side into [1024, 3072]
  and narrowed, the three bias vectors laid end to end into [3072]. Between the regions: each projection, a
  [16384, 1024] matrix of rows, reshaped back to [8, 2048, 1024].
-/
import proofs.«172001_j21887153340534_2_alg».proof.Proof.KernelIdealRun
import Idealize.ShloMosaic.Lib.StableHlo.Run
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable {F : FTy → Type} [FloatOps F]
variable (m : (ℓ : Loc nD τ sig) → Buf (Elt F) ℓ) (ρ : Dev nD → PrngReg)

/-- The projection region reads the input as [16384, 1024] rows. -/
theorem V1_main_v3 (c : Dev nD) : V1 m ρ c main_v3 = shapeCast S16384x1024 (m ((c : Thread nD τ).loc main_arg0)) shapeCasts_S8x2048x1024_S16384x1024 := by
  show StableHlo.after hostOps0 (W0 m ρ c) (Proc.devRef .tc main_v3) = _
  after_results
  rfl

/-- It reads the three weight matrices side by side (the narrowing is a change of format). -/
theorem V1_main_v1 (c : Dev nD) : V1 m ρ c main_v1 = truncf .bf16 (concatenate S1024x3072 1
      [⟨S1024x1024, m ((c : Thread nD τ).loc main_arg1)⟩, ⟨S1024x1024, m ((c : Thread nD τ).loc main_arg3)⟩, ⟨S1024x1024, m ((c : Thread nD τ).loc main_arg5)⟩]
      concatenates_S1024x1024_S1024x1024_S1024x1024_S1024x3072_d1) bitsLt_bf16_f32 := by
  show StableHlo.after hostOps0 (W0 m ρ c) (Proc.devRef .tc main_v1) = _
  after_results
  rfl

/-- It reads the three bias vectors end to end. -/
theorem V1_main_v2 (c : Dev nD) : V1 m ρ c main_v2 = concatenate S3072 0
      [⟨S1024, m ((c : Thread nD τ).loc main_arg2)⟩, ⟨S1024, m ((c : Thread nD τ).loc main_arg4)⟩, ⟨S1024, m ((c : Thread nD τ).loc main_arg6)⟩]
      concatenates_S1024_S1024_S1024_S3072_d0 := by
  show StableHlo.after hostOps0 (W0 m ρ c) (Proc.devRef .tc main_v2) = _
  after_results
  rfl

/-- The attention region reads each projection reshaped to [8, 2048, 1024]. -/
theorem V3_main_v5 (c : Dev nD) : V3 m ρ c main_v5 = shapeCast S8x2048x1024 (W2 m ρ c (Proc.devRef .tc main_v4_0)) shapeCasts_S16384x1024_S8x2048x1024 := by
  show StableHlo.after hostOps1 (W2 m ρ c) (Proc.devRef .tc main_v5) = _
  after_results
  rfl
theorem V3_main_v6 (c : Dev nD) : V3 m ρ c main_v6 = shapeCast S8x2048x1024 (W2 m ρ c (Proc.devRef .tc main_v4_1)) shapeCasts_S16384x1024_S8x2048x1024 := by
  show StableHlo.after hostOps1 (W2 m ρ c) (Proc.devRef .tc main_v6) = _
  after_results
  rfl
theorem V3_main_v7 (c : Dev nD) : V3 m ρ c main_v7 = shapeCast S8x2048x1024 (W2 m ρ c (Proc.devRef .tc main_v4_2)) shapeCasts_S16384x1024_S8x2048x1024 := by
  show StableHlo.after hostOps1 (W2 m ρ c) (Proc.devRef .tc main_v7) = _
  after_results
  rfl

end Cert.KernelIdeal.Hand

end
-- ==== Proof.KernelBlocksDots.lean ====
/-
  The three matrix products of the two kernel bodies, read at an index.

  A product into the zero accumulator is, at the output entry (p, g), the sum over the one contracted axis of the left
  operand's row p times the right operand's column g (for the score product, whose right operand is contracted along
  its second axis, the right operand's row g). The contraction's index set has one axis; the sum is re-indexed to that
  axis's coordinate.
-/
import proofs.«172001_j21887153340534_2_alg».proof.Proof.Gen.KernelIdeal.Skeleton
import Idealize.ShloMosaic.Lib.ValueIdx
import Idealize.ShloMosaic.PureOps.Ideal.Laws

noncomputable section

open scoped BigOperators

namespace Cert.KernelBlocks

open Idealize.ShloMosaic Idealize.ShloMosaic.ValueIdx Cert.KernelIdeal Cert.KernelIdeal.Gen

/-- The input block [512, 1024] times the joined weights [1024, 3072]: entry (p, g) is `∑ e, a (p, e) * b (e, g)`. -/
theorem matmulXW_lhs0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem matmulXW_lhs1 (j : S512x3072.Idx) (q : dot_S512x1024_S1024x3072_S512x3072_1_0_0_1_n_n.contr.Idx) :
    (dot_S512x1024_S1024x3072_S512x3072_1_0_0_1_n_n.lhsIdx j q 1).val = (q ⟨0, by decide⟩).val :=
  dot_S512x1024_S1024x3072_S512x3072_1_0_0_1_n_n.lhsIdx_val_of_single rfl j q
theorem matmulXW_rhs0 (j : S512x3072.Idx) (q : dot_S512x1024_S1024x3072_S512x3072_1_0_0_1_n_n.contr.Idx) :
    (dot_S512x1024_S1024x3072_S512x3072_1_0_0_1_n_n.rhsIdx j q 0).val = (q ⟨0, by decide⟩).val :=
  dot_S512x1024_S1024x3072_S512x3072_1_0_0_1_n_n.rhsIdx_val_of_single rfl j q
theorem matmulXW_rhs1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl
theorem matmulXW_apply {φ₁ φ₂ : FTy} (a : FVec Ideal S512x1024 φ₁) (b : FVec Ideal S1024x3072 φ₂) (p : Fin 512) (g : Fin 3072) :
    matmul dot_S512x1024_S1024x3072_S512x3072_1_0_0_1_n_n none a b (constant S512x3072 .f32 0x00000000#32) (ix2 p g)
      = ∑ e : Fin 1024, a (ix2 p e) * b (ix2 e g) := by
  refine (Ideal.matmul_constant_zero_apply dot_S512x1024_S1024x3072_S512x3072_1_0_0_1_n_n none a b (ix2 p g)).trans ?_
  rw [← Equiv.sum_comp (contrEquiv1 dot_S512x1024_S1024x3072_S512x3072_1_0_0_1_n_n 1024 rfl rfl).symm]
  refine Finset.sum_congr rfl fun e _ => ?_
  have hk := contrEquiv1_symm_val dot_S512x1024_S1024x3072_S512x3072_1_0_0_1_n_n 1024 rfl rfl e
  have el : dot_S512x1024_S1024x3072_S512x3072_1_0_0_1_n_n.lhsIdx (ix2 p g) ((contrEquiv1 dot_S512x1024_S1024x3072_S512x3072_1_0_0_1_n_n 1024 rfl rfl).symm e) = ix2 p e :=
    funext fun ax => Fin.ext (by
      match ax with
      | ⟨0, _⟩ => exact matmulXW_lhs0 _ _
      | ⟨1, _⟩ => exact (matmulXW_lhs1 _ _).trans hk)
  have er : dot_S512x1024_S1024x3072_S512x3072_1_0_0_1_n_n.rhsIdx (ix2 p g) ((contrEquiv1 dot_S512x1024_S1024x3072_S512x3072_1_0_0_1_n_n 1024 rfl rfl).symm e) = ix2 e g :=
    funext fun ax => Fin.ext (by
      match ax with
      | ⟨0, _⟩ => exact (matmulXW_rhs0 _ _).trans hk
      | ⟨1, _⟩ => exact matmulXW_rhs1 _ _)
  rw [el, er]

/-- The query block [512, 1024] against the key rows [2048, 1024], both contracted along the feature axis: entry (p, g) is `∑ e, a (p, e) * b (g, e)`. -/
theorem matmulQK_lhs0 (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem matmulQK_lhs1 (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
theorem matmulQK_rhs1 (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q
theorem matmulQK_rhs0 (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem matmulQK_apply {φ₁ φ₂ : FTy} (a : FVec Ideal S512x1024 φ₁) (b : FVec Ideal S2048x1024 φ₂) (p : Fin 512) (g : Fin 2048) :
    matmul dot_S512x1024_S2048x1024_S512x2048_1_1_0_0_n_n none a b (constant S512x2048 .f32 0x00000000#32) (ix2 p g)
      = ∑ e : Fin 1024, a (ix2 p e) * b (ix2 g e) := by
  refine (Ideal.matmul_constant_zero_apply dot_S512x1024_S2048x1024_S512x2048_1_1_0_0_n_n none a b (ix2 p g)).trans ?_
  rw [← Equiv.sum_comp (contrEquiv1 dot_S512x1024_S2048x1024_S512x2048_1_1_0_0_n_n 1024 rfl rfl).symm]
  refine Finset.sum_congr rfl fun e _ => ?_
  have hk := contrEquiv1_symm_val dot_S512x1024_S2048x1024_S512x2048_1_1_0_0_n_n 1024 rfl rfl e
  have el : dot_S512x1024_S2048x1024_S512x2048_1_1_0_0_n_n.lhsIdx (ix2 p g) ((contrEquiv1 dot_S512x1024_S2048x1024_S512x2048_1_1_0_0_n_n 1024 rfl rfl).symm e) = ix2 p e :=
    funext fun ax => Fin.ext (by
      match ax with
      | ⟨0, _⟩ => exact matmulQK_lhs0 _ _
      | ⟨1, _⟩ => exact (matmulQK_lhs1 _ _).trans hk)
  have er : dot_S512x1024_S2048x1024_S512x2048_1_1_0_0_n_n.rhsIdx (ix2 p g) ((contrEquiv1 dot_S512x1024_S2048x1024_S512x2048_1_1_0_0_n_n 1024 rfl rfl).symm e) = ix2 g e :=
    funext fun ax => Fin.ext (by
      match ax with
      | ⟨1, _⟩ => exact (matmulQK_rhs1 _ _).trans hk
      | ⟨0, _⟩ => exact matmulQK_rhs0 _ _)
  rw [el, er]

/-- The weights [512, 2048] times the value rows [2048, 1024]: entry (p, g) is `∑ e, a (p, e) * b (e, g)`. -/
theorem matmulPV_lhs0 (j : S512x1024.Idx) (q : dot_S512x2048_S2048x1024_S512x1024_1_0_0_1_n_n.contr.Idx) :
    (dot_S512x2048_S2048x1024_S512x1024_1_0_0_1_n_n.lhsIdx j q 0).val = (j 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl
theorem matmulPV_lhs1 (j : S512x1024.Idx) (q : dot_S512x2048_S2048x1024_S512x1024_1_0_0_1_n_n.contr.Idx) :
    (dot_S512x2048_S2048x1024_S512x1024_1_0_0_1_n_n.lhsIdx j q 1).val = (q ⟨0, by decide⟩).val :=
  dot_S512x2048_S2048x1024_S512x1024_1_0_0_1_n_n.lhsIdx_val_of_single rfl j q
theorem matmulPV_rhs0 (j : S512x1024.Idx) (q : dot_S512x2048_S2048x1024_S512x1024_1_0_0_1_n_n.contr.Idx) :
    (dot_S512x2048_S2048x1024_S512x1024_1_0_0_1_n_n.rhsIdx j q 0).val = (q ⟨0, by decide⟩).val :=
  dot_S512x2048_S2048x1024_S512x1024_1_0_0_1_n_n.rhsIdx_val_of_single rfl j q
theorem matmulPV_rhs1 (j : S512x1024.Idx) (q : dot_S512x2048_S2048x1024_S512x1024_1_0_0_1_n_n.contr.Idx) :
    (dot_S512x2048_S2048x1024_S512x1024_1_0_0_1_n_n.rhsIdx j q 1).val = (j 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl
theorem matmulPV_apply {φ₁ φ₂ : FTy} (a : FVec Ideal S512x2048 φ₁) (b : FVec Ideal S2048x1024 φ₂) (p : Fin 512) (g : Fin 1024) :
    matmul dot_S512x2048_S2048x1024_S512x1024_1_0_0_1_n_n none a b (constant S512x1024 .f32 0x00000000#32) (ix2 p g)
      = ∑ e : Fin 2048, a (ix2 p e) * b (ix2 e g) := by
  refine (Ideal.matmul_constant_zero_apply dot_S512x2048_S2048x1024_S512x1024_1_0_0_1_n_n none a b (ix2 p g)).trans ?_
  rw [← Equiv.sum_comp (contrEquiv1 dot_S512x2048_S2048x1024_S512x1024_1_0_0_1_n_n 2048 rfl rfl).symm]
  refine Finset.sum_congr rfl fun e _ => ?_
  have hk := contrEquiv1_symm_val dot_S512x2048_S2048x1024_S512x1024_1_0_0_1_n_n 2048 rfl rfl e
  have el : dot_S512x2048_S2048x1024_S512x1024_1_0_0_1_n_n.lhsIdx (ix2 p g) ((contrEquiv1 dot_S512x2048_S2048x1024_S512x1024_1_0_0_1_n_n 2048 rfl rfl).symm e) = ix2 p e :=
    funext fun ax => Fin.ext (by
      match ax with
      | ⟨0, _⟩ => exact matmulPV_lhs0 _ _
      | ⟨1, _⟩ => exact (matmulPV_lhs1 _ _).trans hk)
  have er : dot_S512x2048_S2048x1024_S512x1024_1_0_0_1_n_n.rhsIdx (ix2 p g) ((contrEquiv1 dot_S512x2048_S2048x1024_S512x1024_1_0_0_1_n_n 2048 rfl rfl).symm e) = ix2 e g :=
    funext fun ax => Fin.ext (by
      match ax with
      | ⟨0, _⟩ => exact (matmulPV_rhs0 _ _).trans hk
      | ⟨1, _⟩ => exact matmulPV_rhs1 _ _)
  rw [el, er]

end Cert.KernelBlocks

end
-- ==== Proof.AttentionSpec.lean ====
/-
  Single-head attention over the extended reals, as one function of the argument arrays.

  For a batch entry `n` the three projections are `Q = x·Wq + bq`, `K = x·Wk + bk`, `V = x·Wv + bv` (each entry a sum
  over the 1024 input features plus a bias). A query row `q` of `Q` is scored against every key row,
  `sc s = (∑ k, q k · K s k) · 2⁻⁵` (the scale is `1/√1024`), the scores are shifted by their supremum, exponentiated and
  normalised by their sum, and the weights average the rows of `V`. Nothing here depends on a program: the index types
  are the literal extents.
-/
import Idealize.ShloMosaic.PureOps.Ideal

noncomputable section

open scoped BigOperators

namespace Cert.AttnSpec

open Idealize.ShloMosaic

/-- The scale `2⁻⁵ = 1/√1024`, as the f32 word the kernel multiplies by. -/
def scale : EReal := Ideal.ofBits .f32 0x3D000000#32

/-- One entry of a projection: `(∑ d, x d · W d k) + b k` for the input row `x`. -/
def proj (x : Fin 1024 → EReal) (W : Fin 1024 → Fin 1024 → EReal) (b : Fin 1024 → EReal) (k : Fin 1024) : EReal :=
  (∑ d : Fin 1024, x d * W d k) + b k

/-- The scaled score of the query row `q` against key row `s`. -/
def score (q : Fin 1024 → EReal) (K : Fin 2048 → Fin 1024 → EReal) (s : Fin 2048) : EReal :=
  (∑ k : Fin 1024, q k * K s k) * scale

/-- The shifted exponential of a score: `exp (sc s − sup sc)`. -/
def expo (q : Fin 1024 → EReal) (K : Fin 2048 → Fin 1024 → EReal) (s : Fin 2048) : EReal :=
  Ideal.exp (score q K s - ⨆ s' : Fin 2048, score q K s')

/-- The softmax weight of key row `s`: its shifted exponential over the sum of them all. -/
def weight (q : Fin 1024 → EReal) (K : Fin 2048 → Fin 1024 → EReal) (s : Fin 2048) : EReal :=
  Ideal.div (expo q K s) (∑ s' : Fin 2048, expo q K s')

/-- One entry of the attention output for the query row `q`: the weighted average of column `d` of `V`. -/
def attnRow (q : Fin 1024 → EReal) (K V : Fin 2048 → Fin 1024 → EReal) (d : Fin 1024) : EReal :=
  ∑ s : Fin 2048, weight q K s * V s d

/-- The whole layer at batch entry `n`, query position `p`, output feature `d`. -/
def attn (x : Fin 8 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (n : Fin 8) (p : Fin 2048) (d : Fin 1024) : EReal :=
  attnRow (proj (x n p) Wq bq) (fun s => proj (x n s) Wk bk) (fun s => proj (x n s) Wv bv) d

end Cert.AttnSpec

end
-- ==== Proof.KernelBlocksQkv.lean ====
/-
  The projection kernel's three stored blocks, read at an index.

  The kernel multiplies its input block x [512, 1024] by the three weight matrices joined side by side, w [1024, 3072],
  adds the joined bias b [3072] to every row, and stores the column ranges [0, 1024), [1024, 2048), [2048, 3072) as the
  query, key and value blocks. So entry (p, f) of the block cut at offset o is the projection of row p of x by the
  columns o + k of w with the bias entries o + k: `(∑ e, x (p, e) * w (e, o + f)) + b (o + f)`. The rounding of the
  operands to bf16 is the identity on the extended reals.
-/
import proofs.«172001_j21887153340534_2_alg».proof.Proof.Gen.KernelIdeal.Skeleton
import proofs.«172001_j21887153340534_2_alg».proof.Proof.AttentionSpec
import proofs.«172001_j21887153340534_2_alg».proof.Proof.KernelBlocksDots
import Idealize.ShloMosaic.Lib.ValueIdx
import Idealize.ShloMosaic.Lib.ValueLayout
import Idealize.ShloMosaic.Lib.Pipeline.Value

noncomputable section

open scoped BigOperators

namespace Cert.KernelBlocks

open Idealize.ShloMosaic Idealize.ShloMosaic.ValueIdx Cert.KernelIdeal Cert.KernelIdeal.Gen

/-- The joined projection before it is cut: entry (p, g) is the product's entry plus the bias at g (the bias, a vector,
    is recast as one row and that row repeated down the 512 rows). -/
theorem k0_pay1_apply (x : Vec Ideal S512x1024 .f32) (w : Vec Ideal S1024x3072 .bf16) (b : Vec Ideal S3072 .f32)
    (p : Fin 512) (g : Fin 3072) :
    k0_pay1 (F := Ideal) x w b (ix2 p g) = (∑ e : Fin 1024, x (ix2 p e) * w (ix2 e g)) + b (ix1 g) := by
  unfold k0_pay1
  refine (addf_apply _ _ (ix2 p g)).trans ?_
  refine congrArg₂ (· + ·) ?_ ?_
  · refine (matmulXW_apply _ _ p g).trans ?_
    rw [shapeCast_self x, shapeCast_self w]
    rfl
  · refine (broadcastTo_1b_ab_apply _ _ p g).trans ?_
    refine (shapeCast_a_1a_apply _ _ (0 : Fin 1) g).trans ?_
    rw [shapeCast_self b]

/-- A block cut from the joined projection at column offset `o`: entry (p, f) is the joined projection at (p, c f),
    where `c f` is the column `o + f`. -/
theorem slice_apply (o : ℕ) (x : Vec Ideal S512x1024 .f32) (w : Vec Ideal S1024x3072 .bf16) (b : Vec Ideal S3072 .f32)
    (h : S512x3072.Slices ![0, o] S512x1024) (c : Fin 1024 → Fin 3072) (hc : ∀ k, (c k).val = k.val + o)
    (p : Fin 512) (f : Fin 1024) :
    extractStridedSlice S512x1024 ![0, o] (k0_pay1 (F := Ideal) x w b) h (ix2 p f)
      = Cert.AttnSpec.proj (fun e => x (ix2 p e)) (fun e k => w (ix2 e (c k))) (fun k => b (ix1 (c k))) f :=
  (slice2_axis1_apply o (k0_pay1 (F := Ideal) x w b) h p f (c f) (by rw [hc f, Nat.add_comm])).trans
    (k0_pay1_apply x w b p (c f))

/-- The query block: the columns [0, 1024) of the joined projection. -/
theorem k0_pay2_apply (x : Vec Ideal S512x1024 .f32) (w : Vec Ideal S1024x3072 .bf16) (b : Vec Ideal S3072 .f32)
    (c : Fin 1024 → Fin 3072) (hc : ∀ k, (c k).val = k.val) (p : Fin 512) (f : Fin 1024) :
    k0_pay2 (F := Ideal) x w b (ix2 p f)
      = Cert.AttnSpec.proj (fun e => x (ix2 p e)) (fun e k => w (ix2 e (c k))) (fun k => b (ix1 (c k))) f :=
  slice_apply 0 x w b slices_S512x3072_o0_0_S512x1024 c hc p f

/-- The key block: the columns [1024, 2048) of the joined projection. -/
theorem k0_pay3_apply (x : Vec Ideal S512x1024 .f32) (w : Vec Ideal S1024x3072 .bf16) (b : Vec Ideal S3072 .f32)
    (c : Fin 1024 → Fin 3072) (hc : ∀ k, (c k).val = k.val + 1024) (p : Fin 512) (f : Fin 1024) :
    k0_pay3 (F := Ideal) x w b (ix2 p f)
      = Cert.AttnSpec.proj (fun e => x (ix2 p e)) (fun e k => w (ix2 e (c k))) (fun k => b (ix1 (c k))) f :=
  slice_apply 1024 x w b slices_S512x3072_o0_1024_S512x1024 c hc p f

/-- The value block: the columns [2048, 3072) of the joined projection. -/
theorem k0_pay4_apply (x : Vec Ideal S512x1024 .f32) (w : Vec Ideal S1024x3072 .bf16) (b : Vec Ideal S3072 .f32)
    (c : Fin 1024 → Fin 3072) (hc : ∀ k, (c k).val = k.val + 2048) (p : Fin 512) (f : Fin 1024) :
    k0_pay4 (F := Ideal) x w b (ix2 p f)
      = Cert.AttnSpec.proj (fun e => x (ix2 p e)) (fun e k => w (ix2 e (c k))) (fun k => b (ix1 (c k))) f :=
  slice_apply 2048 x w b slices_S512x3072_o0_2048_S512x1024 c hc p f

end Cert.KernelBlocks

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«172001_j21887153340534_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelBlocksAttn.lean ====
/-
  The attention kernel's stored block, read at an index.

  The kernel holds a query block q [1, 512, 1024] and all key and value rows k, v [1, 2048, 1024] of one batch entry.
  It drops the unit axis, forms the scores `sc (r, s) = (∑ e, q (r, e) * k (s, e)) * 2⁻⁵`, takes each row's maximum,
  subtracts it, exponentiates, divides by the row's sum, and multiplies the weights by the value rows. Read at (u, r, d)
  the result is the softmax-weighted average of column d of v for query row r. Each step is read at an index: the
  pointwise operations entrywise; a row maximum from the `-∞` word as the supremum over the row, a row sum from the zero
  word as the sum over the row; a row statistic recast as a column and repeated across the 2048 columns as the statistic
  of the entry's own row.
-/
import proofs.«172001_j21887153340534_2_alg».proof.Proof.Gen.KernelIdeal.Skeleton
import proofs.«172001_j21887153340534_2_alg».proof.Proof.AttentionSpec
import proofs.«172001_j21887153340534_2_alg».proof.Proof.LibExtremeReduce
import proofs.«172001_j21887153340534_2_alg».proof.Proof.LibKeepdims
import proofs.«172001_j21887153340534_2_alg».proof.Proof.KernelBlocksDots
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelBlocks

open Idealize.ShloMosaic Idealize.ShloMosaic.ValueIdx Cert.KernelIdeal Cert.KernelIdeal.Gen

/-- A row statistic [512] recast as a column [512, 1] and repeated across 2048 columns reads, at (r, s), the statistic
    of row r. -/
theorem colBroadcast_apply (t : FVec Ideal S512 .f32) (r : Fin 512) (s : Fin 2048) :
    (broadcastTo S512x2048 (shapeCast S512x1 t shapeCasts_S512_S512x1) broadcasts_S512x1_S512x2048) (ix2 r s) = t (ix1 r) :=
  (Cert.LibKeepdims.broadcastTo_a1_ab_apply _ _ r s).trans (Cert.LibKeepdims.shapeCast_a_a1_apply t _ r (0 : Fin 1))

/-- The source index of a reduction along the columns, over row r with column s put back, is (r, s). -/
theorem lift_row (r : Fin 512) (s : Fin 2048) :
    reduces_S512x2048_S512.lift (ix1 r) s = ix2 r s :=
  funext fun ax => Fin.ext (by
    match ax with
    | ⟨0, _⟩ => rfl
    | ⟨1, _⟩ => rfl)

/-- The row maximum from the `-∞` word, at row r, is the supremum of the row. -/
theorem rowMax_apply (src : FVec Ideal S512x2048 .f32) (hφ : FKind.Formats .f32)
    (hacc : (0xFF800000#32 : BitVec 32) = FKind.maximumf.neutral .f32 hφ) (r : Fin 512) :
    (multiReduction .maximumf [1] S512 src 0xFF800000#32 reduces_S512x2048_S512 hφ hacc) (ix1 r) = ⨆ s : Fin 2048, src (ix2 r s) := by
  refine (ExtremeReduce.multiReduction_max_single src reduces_S512x2048_S512 hφ hacc (ix1 r)).trans ?_
  show (⨆ s : Fin 2048, src (reduces_S512x2048_S512.lift (ix1 r) s)) = _
  exact iSup_congr fun s => congrArg src (lift_row r s)

/-- The row sum from the zero word, at row r, is the sum of the row. -/
theorem rowSum_apply (src : FVec Ideal S512x2048 .f32) (hφ : FKind.Formats .f32)
    (hacc : (0x00000000#32 : BitVec 32) = FKind.add.neutral .f32 hφ) (r : Fin 512) :
    (multiReduction .add [1] S512 src 0x00000000#32 reduces_S512x2048_S512 hφ hacc) (ix1 r) = ∑ s : Fin 2048, src (ix2 r s) := by
  refine (Ideal.multiReduction_add_single src 0x00000000#32 reduces_S512x2048_S512 hφ hacc (ix1 r)).trans ?_
  show (∑ s : Fin 2048, src (reduces_S512x2048_S512.lift (ix1 r) s)) = _
  exact Finset.sum_congr rfl fun s _ => congrArg src (lift_row r s)

/-- Scores shifted by their row maximum and exponentiated: if row r of `sc` is `f`, entry (r, s) is
    `exp (f s − sup f)`. -/
theorem expo_apply (sc : FVec Ideal S512x2048 .f32) (hφ : FKind.Formats .f32)
    (hacc : (0xFF800000#32 : BitVec 32) = FKind.maximumf.neutral .f32 hφ) (r : Fin 512) (f : Fin 2048 → EReal)
    (hsc : ∀ s, sc (ix2 r s) = f s) (s : Fin 2048) :
    exp (subf sc (broadcastTo S512x2048 (shapeCast S512x1 (multiReduction .maximumf [1] S512 sc 0xFF800000#32 reduces_S512x2048_S512 hφ hacc) shapeCasts_S512_S512x1) broadcasts_S512x1_S512x2048)) (ix2 r s) = Ideal.exp (f s - ⨆ s' : Fin 2048, f s') := by
  show Ideal.exp (sc (ix2 r s) - (broadcastTo S512x2048 (shapeCast S512x1 (multiReduction .maximumf [1] S512 sc 0xFF800000#32 reduces_S512x2048_S512 hφ hacc) shapeCasts_S512_S512x1) broadcasts_S512x1_S512x2048) (ix2 r s)) = _
  rw [colBroadcast_apply, rowMax_apply, hsc s]
  exact congrArg (fun m => Ideal.exp (f s - m)) (iSup_congr hsc)

/-- Exponentials divided by their row sum: if row r of `ex` is `g`, entry (r, s) is `g s / ∑ g`. -/
theorem normalise_apply (ex : FVec Ideal S512x2048 .f32) (hφ : FKind.Formats .f32)
    (hacc : (0x00000000#32 : BitVec 32) = FKind.add.neutral .f32 hφ) (r : Fin 512) (g : Fin 2048 → EReal)
    (hex : ∀ s, ex (ix2 r s) = g s) (s : Fin 2048) :
    divf ex (broadcastTo S512x2048 (shapeCast S512x1 (multiReduction .add [1] S512 ex 0x00000000#32 reduces_S512x2048_S512 hφ hacc) shapeCasts_S512_S512x1) broadcasts_S512x1_S512x2048) (ix2 r s) = Ideal.div (g s) (∑ s' : Fin 2048, g s') := by
  show Ideal.div (ex (ix2 r s)) ((broadcastTo S512x2048 (shapeCast S512x1 (multiReduction .add [1] S512 ex 0x00000000#32 reduces_S512x2048_S512 hφ hacc) shapeCasts_S512_S512x1) broadcasts_S512x1_S512x2048) (ix2 r s)) = _
  rw [colBroadcast_apply, rowSum_apply, hex s]
  exact congrArg (Ideal.div (g s)) (Finset.sum_congr rfl fun s' _ => hex s')

/-- The scaled scores of the query block against the key rows, at (r, s). -/
theorem score_apply (q : Vec Ideal S1x512x1024 .bf16) (k : Vec Ideal S1x2048x1024 .bf16) (r : Fin 512) (s : Fin 2048) :
    mulf (F := Ideal) (matmul (F := Ideal) (φ₁ := .bf16) (φ₂ := .bf16) dot_S512x1024_S2048x1024_S512x2048_1_1_0_0_n_n none
        (shapeCast S512x1024 q shapeCasts_S1x512x1024_S512x1024) (shapeCast S2048x1024 k shapeCasts_S1x2048x1024_S2048x1024)
        (constant S512x2048 .f32 0x00000000#32))
      (broadcast S512x2048 (Scalar.ofBits .f32 0x3D000000#32)) (ix2 r s)
      = Cert.AttnSpec.score (fun e => q (ix3 (0 : Fin 1) r e)) (fun s e => k (ix3 (0 : Fin 1) s e)) s := by
  refine (mulf_apply _ _ (ix2 r s)).trans ?_
  rw [matmulQK_apply]
  simp only [shapeCast_1ab_ab_apply]
  rfl

/-- The attention block at (u, r, d): the softmax-weighted average of column d of the value rows, for query row r. -/
theorem k1_pay1_apply (q : Vec Ideal S1x512x1024 .bf16) (k v : Vec Ideal S1x2048x1024 .bf16)
    (u : Fin 1) (r : Fin 512) (d : Fin 1024) :
    k1_pay1 (F := Ideal) q k v (ix3 u r d)
      = Cert.AttnSpec.attnRow (fun e => q (ix3 (0 : Fin 1) r e)) (fun s e => k (ix3 (0 : Fin 1) s e)) (fun s e => v (ix3 (0 : Fin 1) s e)) d := by
  unfold k1_pay1
  refine (shapeCast_ab_1ab_apply _ _ u r d).trans ?_
  refine (matmulPV_apply _ _ r d).trans ?_
  unfold Cert.AttnSpec.attnRow
  refine Finset.sum_congr rfl fun s _ => ?_
  refine congrArg₂ (· * ·) ?_ (shapeCast_1ab_ab_apply v _ s d)
  refine (truncf_apply (φ := .f32) (ψ := .bf16) _ bitsLt_bf16_f32 (ix2 r s)).trans ?_
  refine (normalise_apply _ _ _ r (Cert.AttnSpec.expo (fun e => q (ix3 (0 : Fin 1) r e)) (fun s e => k (ix3 (0 : Fin 1) s e))) (fun s' => ?_) s).trans rfl
  exact expo_apply _ _ _ r (Cert.AttnSpec.score (fun e => q (ix3 (0 : Fin 1) r e)) (fun s e => k (ix3 (0 : Fin 1) s e))) (fun s'' => score_apply q k r s'') s'

end Cert.KernelBlocks

end
-- ==== Proof.KernelBlocks.lean ====
/-
  The two kernel bodies' stored values read at an index: the projection kernel's query, key and value blocks
  (`k0_pay2_apply`, `k0_pay3_apply`, `k0_pay4_apply`: an entry is the projection of the input row by the block's
  columns of the joined weights and bias) and the attention kernel's output block (`k1_pay1_apply`: an entry is the
  softmax-weighted average of a value column). The three matrix products read at an index are in the first module.
-/
import proofs.«172001_j21887153340534_2_alg».proof.Proof.KernelBlocksDots
import proofs.«172001_j21887153340534_2_alg».proof.Proof.KernelBlocksQkv
import proofs.«172001_j21887153340534_2_alg».proof.Proof.KernelBlocksAttn
-- ==== Proof.KernelIdealProjArrays.lean ====
/-
  The three projection arrays after the projection region. Grid point `t` writes back rows `512·t … 512·t + 511` of
  each output; the body's stored block at an entry `(r, f)` is the input row `512·t + r` against column `f` of the
  g-th slice of the joined weights, plus that slice's bias. The blocks are restrictions of one whole-array function
  and the 32 points' blocks cover all 16384 rows, so each output array ends holding that function.
-/
import proofs.«172001_j21887153340534_2_alg».proof.Proof.KernelIdealBody0
import proofs.«172001_j21887153340534_2_alg».proof.Proof.KernelBlocks
import proofs.«172001_j21887153340534_2_alg».proof.Proof.AttentionSpec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Column `k` of the `g`-th slice of the joined weights. -/
def col (g : Fin 3) (k : Fin 1024) : Fin 3072 := ⟨k.val + g.val * 1024, by have := k.isLt; have := g.isLt; omega⟩

/-- The `g`-th projection as one function of the flattened input `X`, the joined weights `Wj` and the joined bias `Bj`. -/
def projArr (g : Fin 3) (X : S16384x1024.Idx → EReal) (Wj : S1024x3072.Idx → EReal) (Bj : S3072.Idx → EReal) : S16384x1024.Idx → EReal :=
  fun i => Cert.AttnSpec.proj (fun e => X (ix2 (⟨(i 0).val, (i 0).isLt⟩ : Fin 16384) e)) (fun e k => Wj (ix2 e (col g k)))
    (fun k => Bj (ix1 (col g k))) (⟨(i 1).val, (i 1).isLt⟩ : Fin 1024)

/-- The printed index maps, decided once over the grid: the input rows and the three outputs move with the point, the
    weights and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input block at point `t`, entry `(r, e)`, is row `512·t + r` of the flattened input. -/
theorem iblk0_0_apply (c : Dev nD) (t : Fin cfg0.N) (r : Fin 512) (e : Fin 1024) (R : Fin 16384) (hR : R.val = t.val * 512 + r.val) :
    iblk0 V c 0 t (ix2 r e) = V c main_v3 (ix2 R e) := by
  obtain ⟨e0, e1, -⟩ := idx_facts0 t
  show V c main_v3 (((cfg0.win 0).blk t).view.emb (ix2 r e)) = V c main_v3 (ix2 R e)
  refine congrArg (V c main_v3) (funext fun a => Fin.ext ?_)
  match a with
  | ⟨0, _⟩ => show win0_0.index t (0 : Fin 2) * 512 + 1 * r.val = R.val; rw [e0, hR]; omega
  | ⟨1, _⟩ => show win0_0.index t (1 : Fin 2) * 1024 + 1 * e.val = e.val; rw [e1]; omega

/-- The weight block is the whole joined matrix at every point. -/
theorem iblk0_1_apply (c : Dev nD) (t : Fin cfg0.N) (e : Fin 1024) (k : Fin 3072) :
    iblk0 V c 1 t (ix2 e k) = V c main_v1 (ix2 e k) := by
  obtain ⟨-, -, e0, e1, -⟩ := idx_facts0 t
  show V c main_v1 (((cfg0.win 1).blk t).view.emb (ix2 e k)) = V c main_v1 (ix2 e k)
  refine congrArg (V c main_v1) (funext fun a => Fin.ext ?_)
  match a with
  | ⟨0, _⟩ => show win0_1.index t (0 : Fin 2) * 1024 + 1 * e.val = e.val; rw [e0]; omega
  | ⟨1, _⟩ => show win0_1.index t (1 : Fin 2) * 3072 + 1 * k.val = k.val; rw [e1]; omega

/-- The bias block is the whole joined vector at every point. -/
theorem iblk0_2_apply (c : Dev nD) (t : Fin cfg0.N) (k : Fin 3072) :
    iblk0 V c 2 t (ix1 k) = V c main_v2 (ix1 k) := by
  obtain ⟨-, -, -, -, e0, -⟩ := idx_facts0 t
  show V c main_v2 (((cfg0.win 2).blk t).view.emb (ix1 k)) = V c main_v2 (ix1 k)
  refine congrArg (V c main_v2) (funext fun a => Fin.ext ?_)
  match a with
  | ⟨0, _⟩ => show win0_2.index t (0 : Fin 1) * 3072 + 1 * k.val = k.val; rw [e0]; omega

/-- The projection at an index whose coordinates are known. -/
theorem projArr_apply (g : Fin 3) (X : S16384x1024.Idx → EReal) (Wj : S1024x3072.Idx → EReal) (Bj : S3072.Idx → EReal)
    (i : S16384x1024.Idx) (R : Fin 16384) (f : Fin 1024) (h0 : (i 0).val = R.val) (h1 : (i 1).val = f.val) :
    projArr g X Wj Bj i = Cert.AttnSpec.proj (fun e => X (ix2 R e)) (fun e k => Wj (ix2 e (col g k))) (fun k => Bj (ix1 (col g k))) f := by
  have e0 : (⟨(i 0).val, (i 0).isLt⟩ : Fin 16384) = R := Fin.ext h0
  have e1 : (⟨(i 1).val, (i 1).isLt⟩ : Fin 1024) = f := Fin.ext h1
  unfold projArr
  rw [e0, e1]

/-- A stored block entry is the projection at the array index it is written back to: the body's arithmetic over the
    blocks is the specification's over the arrays, because each block entry is the array entry it was fetched from. -/
theorem proj_block_eq (g : Fin 3) (c : Dev nD) (t : Fin cfg0.N) (r : Fin 512) (f : Fin 1024)
    (pay : Vec Ideal S512x1024 .f32 → Vec Ideal S1024x3072 .bf16 → Vec Ideal S3072 .f32 → FVec Ideal S512x1024 .bf16)
    (hpay : ∀ (x : Vec Ideal S512x1024 .f32) (w : Vec Ideal S1024x3072 .bf16) (b : Vec Ideal S3072 .f32) (p : Fin 512) (f : Fin 1024),
      pay x w b (ix2 p f) = Cert.AttnSpec.proj (fun e => x (ix2 p e)) (fun e k => w (ix2 e (col g k))) (fun k => b (ix1 (col g k))) f)
    (i : S16384x1024.Idx) (h0 : (i 0).val = t.val * 512 + r.val) (h1 : (i 1).val = f.val) :
    pay (iblk0 V c 0 t) (iblk0 V c 1 t) (iblk0 V c 2 t) (ix2 r f) = projArr g (V c main_v3) (V c main_v1) (V c main_v2) i := by
  have ht : t.val < 32 := lt_of_lt_of_eq t.isLt N_0
  have hR : t.val * 512 + r.val < 16384 := by have := r.isLt; omega
  rw [hpay, projArr_apply g _ _ _ i ⟨t.val * 512 + r.val, hR⟩ f h0 h1]
  have hx : (fun e : Fin 1024 => iblk0 V c 0 t (ix2 r e)) = fun e => V c main_v3 (ix2 (⟨t.val * 512 + r.val, hR⟩ : Fin 16384) e) :=
    funext fun e => iblk0_0_apply V c t r e _ rfl
  have hw : (fun (e : Fin 1024) (k : Fin 1024) => iblk0 V c 1 t (ix2 e (col g k))) = fun e k => V c main_v1 (ix2 e (col g k)) :=
    funext fun e => funext fun k => iblk0_1_apply V c t e _
  have hb : (fun k : Fin 1024 => iblk0 V c 2 t (ix1 (col g k))) = fun k => V c main_v2 (ix1 (col g k)) :=
    funext fun k => iblk0_2_apply V c t _
  rw [hx, hw, hb]

/-- WHAT POINT `t` WRITES BACK into output 0 is block `t` of projection 0. -/
theorem flushed0_3_eq (c : Dev nD) (t : Fin cfg0.N) :
    (dat0 (F := Ideal) V c).flushed 3 t = ((cfg0.win 3).blk t).view.read (Elt Ideal) (projArr 0 (V c main_v3) (V c main_v1) (V c main_v2)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S3072) hz1]
  funext y
  obtain ⟨r, f, rfl⟩ : ∃ (r : Fin 512) (f : Fin 1024), y = ix2 r f := ⟨y 0, y 1, eq_ix2 y⟩
  have e0 : win0_3.index t (0 : Fin 2) = t.val := (idx_facts0 t).2.2.2.2.2.1
  have e1 : win0_3.index t (1 : Fin 2) = 0 := (idx_facts0 t).2.2.2.2.2.2.1
  show k0_pay2 (F := Ideal) (iblk0 V c 0 t) (iblk0 V c 1 t) (iblk0 V c 2 t) (ix2 r f)
    = projArr 0 (V c main_v3) (V c main_v1) (V c main_v2) (((cfg0.win 3).blk t).view.emb (ix2 r f))
  exact proj_block_eq V 0 c t r f k0_pay2
    (fun x w b p f => Cert.KernelBlocks.k0_pay2_apply x w b (col 0) (fun k => by show k.val + 0 * 1024 = k.val; omega) p f) _
    (by show win0_3.index t (0 : Fin 2) * 512 + 1 * r.val = _; rw [e0]; omega)
    (by show win0_3.index t (1 : Fin 2) * 1024 + 1 * f.val = f.val; rw [e1]; omega)

/-- An index of the array is in point `t`'s block iff each coordinate is in the block's range on its axis. -/
theorem mem_blk0_3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4_0).slice (win0_3.rect t)).set ↔ _
  rw [View.set_slice_whole, Rect.mem_set_unit]
  exact Iff.rfl

/-- Row `i 0` lies in the block of point `i 0 / 512`. -/
theorem cover0_3 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  have e0 : win0_3.index t (0 : Fin 2) = t.val := (idx_facts0 t).2.2.2.2.2.1
  have e1 : win0_3.index t (1 : Fin 2) = 0 := (idx_facts0 t).2.2.2.2.2.2.1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1024 ≤ (i 1).val ∧ (i 1).val < win0_3.index t (1 : Fin 2) * 1024 + 1024; rw [e1]; omega

/-- Output 0 after the region is projection 0, whole. -/
theorem final0_3 (c : Dev nD) : (dat0 (F := Ideal) V c).arrAt 3 cfg0.N = projArr 0 (V c main_v3) (V c main_v1) (V c main_v2) :=
  (dat0 V c).arrAt_eq_of_cover 3 _ (fun t _ => flushed0_3_eq V c t) (cover0_3)

/-- WHAT POINT `t` WRITES BACK into output 1 is block `t` of projection 1. -/
theorem flushed0_4_eq (c : Dev nD) (t : Fin cfg0.N) :
    (dat0 (F := Ideal) V c).flushed 4 t = ((cfg0.win 4).blk t).view.read (Elt Ideal) (projArr 1 (V c main_v3) (V c main_v1) (V c main_v2)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x3072) hz2, View.ld_unit_zero (S := S3072) hz1]
  funext y
  obtain ⟨r, f, rfl⟩ : ∃ (r : Fin 512) (f : Fin 1024), y = ix2 r f := ⟨y 0, y 1, eq_ix2 y⟩
  have e0 : win0_4.index t (0 : Fin 2) = t.val := (idx_facts0 t).2.2.2.2.2.2.2.1
  have e1 : win0_4.index t (1 : Fin 2) = 0 := (idx_facts0 t).2.2.2.2.2.2.2.2.1
  show k0_pay3 (F := Ideal) (iblk0 V c 0 t) (iblk0 V c 1 t) (iblk0 V c 2 t) (ix2 r f)
    = projArr 1 (V c main_v3) (V c main_v1) (V c main_v2) (((cfg0.win 4).blk t).view.emb (ix2 r f))
  exact proj_block_eq V 1 c t r f k0_pay3
    (fun x w b p f => Cert.KernelBlocks.k0_pay3_apply x w b (col 1) (fun k => by show k.val + 1 * 1024 = k.val + 1024; omega) p f) _
    (by show win0_4.index t (0 : Fin 2) * 512 + 1 * r.val = _; rw [e0]; omega)
    (by show win0_4.index t (1 : Fin 2) * 1024 + 1 * f.val = f.val; rw [e1]; omega)

/-- An index of the array is in point `t`'s block iff each coordinate is in the block's range on its axis. -/
theorem mem_blk0_4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_1).slice (win0_4.rect t)).set ↔ _
  rw [View.set_slice_whole, Rect.mem_set_unit]
  exact Iff.rfl

/-- Row `i 0` lies in the block of point `i 0 / 512`. -/
theorem cover0_4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  have e0 : win0_4.index t (0 : Fin 2) = t.val := (idx_facts0 t).2.2.2.2.2.2.2.1
  have e1 : win0_4.index t (1 : Fin 2) = 0 := (idx_facts0 t).2.2.2.2.2.2.2.2.1
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1]; omega

/-- Output 1 after the region is projection 1, whole. -/
theorem final0_4 (c : Dev nD) : (dat0 (F := Ideal) V c).arrAt 4 cfg0.N = projArr 1 (V c main_v3) (V c main_v1) (V c main_v2) :=
  (dat0 V c).arrAt_eq_of_cover 4 _ (fun t _ => flushed0_4_eq V c t) (cover0_4)

/-- WHAT POINT `t` WRITES BACK into output 2 is block `t` of projection 2. -/
theorem flushed0_5_eq (c : Dev nD) (t : Fin cfg0.N) :
    (dat0 (F := Ideal) V c).flushed 5 t = ((cfg0.win 5).blk t).view.read (Elt Ideal) (projArr 2 (V c main_v3) (V c main_v1) (V c main_v2)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x3072) hz2, View.ld_unit_zero (S := S3072) hz1]
  funext y
  obtain ⟨r, f, rfl⟩ : ∃ (r : Fin 512) (f : Fin 1024), y = ix2 r f := ⟨y 0, y 1, eq_ix2 y⟩
  have e0 : win0_5.index t (0 : Fin 2) = t.val := (idx_facts0 t).2.2.2.2.2.2.2.2.2.1
  have e1 : win0_5.index t (1 : Fin 2) = 0 := (idx_facts0 t).2.2.2.2.2.2.2.2.2.2
  show k0_pay4 (F := Ideal) (iblk0 V c 0 t) (iblk0 V c 1 t) (iblk0 V c 2 t) (ix2 r f)
    = projArr 2 (V c main_v3) (V c main_v1) (V c main_v2) (((cfg0.win 5).blk t).view.emb (ix2 r f))
  exact proj_block_eq V 2 c t r f k0_pay4
    (fun x w b p f => Cert.KernelBlocks.k0_pay4_apply x w b (col 2) (fun k => by show k.val + 2 * 1024 = k.val + 2048; omega) p f) _
    (by show win0_5.index t (0 : Fin 2) * 512 + 1 * r.val = _; rw [e0]; omega)
    (by show win0_5.index t (1 : Fin 2) * 1024 + 1 * f.val = f.val; rw [e1]; omega)

/-- An index of the array is in point `t`'s block iff each coordinate is in the block's range on its axis. -/
theorem mem_blk0_5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_2).slice (win0_5.rect t)).set ↔ _
  rw [View.set_slice_whole, Rect.mem_set_unit]
  exact Iff.rfl

/-- Row `i 0` lies in the block of point `i 0 / 512`. -/
theorem cover0_5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  have e0 : win0_5.index t (0 : Fin 2) = t.val := (idx_facts0 t).2.2.2.2.2.2.2.2.2.1
  have e1 : win0_5.index t (1 : Fin 2) = 0 := (idx_facts0 t).2.2.2.2.2.2.2.2.2.2
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- Output 2 after the region is projection 2, whole. -/
theorem final0_5 (c : Dev nD) : (dat0 (F := Ideal) V c).arrAt 5 cfg0.N = projArr 2 (V c main_v3) (V c main_v1) (V c main_v2) :=
  (dat0 V c).arrAt_eq_of_cover 5 _ (fun t _ => flushed0_5_eq V c t) (cover0_5)

end Cert.KernelIdeal.Hand

end
-- ==== Proof.KernelIdealAttnArray.lean ====
/-
  The output array after the attention region. Grid point `t` is batch entry `t / 4` and query block `t mod 4`: it
  reads query rows `512·(t mod 4) … + 511` of that entry and the entry's whole key and value matrices, and writes back
  the same rows of the output. The stored block at an entry `(r, d)` is the attention of query row `512·(t mod 4) + r`
  against the entry's keys and values, at feature `d`. The blocks are restrictions of one whole-array function and the
  32 points' blocks cover the array, so it ends holding that function.
-/
import proofs.«172001_j21887153340534_2_alg».proof.Proof.KernelIdealBody1
import proofs.«172001_j21887153340534_2_alg».proof.Proof.KernelBlocks
import proofs.«172001_j21887153340534_2_alg».proof.Proof.AttentionSpec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl

/-- Attention as one function of the query, key and value arrays `[8, 2048, 1024]`. -/
def attnArr (Q K Vv : S8x2048x1024.Idx → EReal) : S8x2048x1024.Idx → EReal :=
  fun i => Cert.AttnSpec.attnRow (fun e => Q (ix3 (⟨(i 0).val, (i 0).isLt⟩ : Fin 8) (⟨(i 1).val, (i 1).isLt⟩ : Fin 2048) e))
    (fun s e => K (ix3 (⟨(i 0).val, (i 0).isLt⟩ : Fin 8) s e)) (fun s e => Vv (ix3 (⟨(i 0).val, (i 0).isLt⟩ : Fin 8) s e))
    (⟨(i 2).val, (i 2).isLt⟩ : Fin 1024)

/-- The same at an index whose coordinates are known. -/
theorem attnArr_apply (Q K Vv : S8x2048x1024.Idx → EReal) (i : S8x2048x1024.Idx) (n : Fin 8) (p : Fin 2048) (d : Fin 1024)
    (h0 : (i 0).val = n.val) (h1 : (i 1).val = p.val) (h2 : (i 2).val = d.val) :
    attnArr Q K Vv i = Cert.AttnSpec.attnRow (fun e => Q (ix3 n p e)) (fun s e => K (ix3 n s e)) (fun s e => Vv (ix3 n s e)) d := by
  have e0 : (⟨(i 0).val, (i 0).isLt⟩ : Fin 8) = n := Fin.ext h0
  have e1 : (⟨(i 1).val, (i 1).isLt⟩ : Fin 2048) = p := Fin.ext h1
  have e2 : (⟨(i 2).val, (i 2).isLt⟩ : Fin 1024) = d := Fin.ext h2
  unfold attnArr
  rw [e0, e1, e2]

/-- The printed index maps, decided once over the grid: point `t` is batch entry `t / 4`, query block `t mod 4`. -/
theorem idx_facts1 : ∀ t : Fin cfg1.N, win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The query block at point `t`, entry `(r, e)`, is query row `512·(t mod 4) + r` of batch entry `t / 4`. -/
theorem iblk1_0_apply (c : Dev nD) (t : Fin cfg1.N) (u : Fin 1) (r : Fin 512) (e : Fin 1024) (n : Fin 8) (p : Fin 2048)
    (hn : n.val = t.val / 4) (hp : p.val = t.val % 4 * 512 + r.val) :
    iblk1 V c 0 t (ix3 u r e) = V c main_v5 (ix3 n p e) := by
  obtain ⟨e0, e1, e2, -⟩ := idx_facts1 t
  have hu : u.val = 0 := by have := u.isLt; omega
  show V c main_v5 (((cfg1.win 0).blk t).view.emb (ix3 u r e)) = V c main_v5 (ix3 n p e)
  refine congrArg (V c main_v5) (funext fun a => Fin.ext ?_)
  match a with
  | ⟨0, _⟩ => show win1_0.index t (0 : Fin 3) * 1 + 1 * u.val = n.val; rw [e0, hn, hu]; omega
  | ⟨1, _⟩ => show win1_0.index t (1 : Fin 3) * 512 + 1 * r.val = p.val; rw [e1, hp]; omega
  | ⟨2, _⟩ => show win1_0.index t (2 : Fin 3) * 1024 + 1 * e.val = e.val; rw [e2]; omega

/-- The key block at point `t` is the whole key matrix of batch entry `t / 4`. -/
theorem iblk1_1_apply (c : Dev nD) (t : Fin cfg1.N) (u : Fin 1) (s : Fin 2048) (e : Fin 1024) (n : Fin 8) (hn : n.val = t.val / 4) :
    iblk1 V c 1 t (ix3 u s e) = V c main_v6 (ix3 n s e) := by
  obtain ⟨-, -, -, e0, e1, e2, -⟩ := idx_facts1 t
  have hu : u.val = 0 := by have := u.isLt; omega
  show V c main_v6 (((cfg1.win 1).blk t).view.emb (ix3 u s e)) = V c main_v6 (ix3 n s e)
  refine congrArg (V c main_v6) (funext fun a => Fin.ext ?_)
  match a with
  | ⟨0, _⟩ => show win1_1.index t (0 : Fin 3) * 1 + 1 * u.val = n.val; rw [e0, hn, hu]; omega
  | ⟨1, _⟩ => show win1_1.index t (1 : Fin 3) * 2048 + 1 * s.val = s.val; rw [e1]; omega
  | ⟨2, _⟩ => show win1_1.index t (2 : Fin 3) * 1024 + 1 * e.val = e.val; rw [e2]; omega

/-- The value block at point `t` is the whole value matrix of batch entry `t / 4`. -/
theorem iblk1_2_apply (c : Dev nD) (t : Fin cfg1.N) (u : Fin 1) (s : Fin 2048) (e : Fin 1024) (n : Fin 8) (hn : n.val = t.val / 4) :
    iblk1 V c 2 t (ix3 u s e) = V c main_v7 (ix3 n s e) := by
  obtain ⟨-, -, -, -, -, -, e0, e1, e2, -⟩ := idx_facts1 t
  have hu : u.val = 0 := by have := u.isLt; omega
  show V c main_v7 (((cfg1.win 2).blk t).view.emb (ix3 u s e)) = V c main_v7 (ix3 n s e)
  refine congrArg (V c main_v7) (funext fun a => Fin.ext ?_)
  match a with
  | ⟨0, _⟩ => show win1_2.index t (0 : Fin 3) * 1 + 1 * u.val = n.val; rw [e0, hn, hu]; omega
  | ⟨1, _⟩ => show win1_2.index t (1 : Fin 3) * 2048 + 1 * s.val = s.val; rw [e1]; omega
  | ⟨2, _⟩ => show win1_2.index t (2 : Fin 3) * 1024 + 1 * e.val = e.val; rw [e2]; omega

/-- A stored block entry is the attention at the array index it is written back to. -/
theorem attn_block_eq (c : Dev nD) (t : Fin cfg1.N) (u : Fin 1) (r : Fin 512) (d : Fin 1024)
    (i : S8x2048x1024.Idx) (h0 : (i 0).val = t.val / 4) (h1 : (i 1).val = t.val % 4 * 512 + r.val) (h2 : (i 2).val = d.val) :
    k1_pay1 (F := Ideal) (iblk1 V c 0 t) (iblk1 V c 1 t) (iblk1 V c 2 t) (ix3 u r d) = attnArr (V c main_v5) (V c main_v6) (V c main_v7) i := by
  have ht : t.val < 32 := lt_of_lt_of_eq t.isLt N_1
  have hn : t.val / 4 < 8 := by omega
  have hp : t.val % 4 * 512 + r.val < 2048 := by have := r.isLt; omega
  rw [Cert.KernelBlocks.k1_pay1_apply, attnArr_apply _ _ _ i ⟨t.val / 4, hn⟩ ⟨t.val % 4 * 512 + r.val, hp⟩ d h0 h1 h2]
  have hq : (fun e : Fin 1024 => iblk1 V c 0 t (ix3 (0 : Fin 1) r e)) = fun e => V c main_v5 (ix3 (⟨t.val / 4, hn⟩ : Fin 8) (⟨t.val % 4 * 512 + r.val, hp⟩ : Fin 2048) e) :=
    funext fun e => iblk1_0_apply V c t 0 r e _ _ rfl rfl
  have hk : (fun (s : Fin 2048) (e : Fin 1024) => iblk1 V c 1 t (ix3 (0 : Fin 1) s e)) = fun s e => V c main_v6 (ix3 (⟨t.val / 4, hn⟩ : Fin 8) s e) :=
    funext fun s => funext fun e => iblk1_1_apply V c t 0 s e _ rfl
  have hv : (fun (s : Fin 2048) (e : Fin 1024) => iblk1 V c 2 t (ix3 (0 : Fin 1) s e)) = fun s e => V c main_v7 (ix3 (⟨t.val / 4, hn⟩ : Fin 8) s e) :=
    funext fun s => funext fun e => iblk1_2_apply V c t 0 s e _ rfl
  rw [hq, hk, hv]

/-- WHAT POINT `t` WRITES BACK is block `t` of the attention array. -/
theorem flushed1_3_eq (c : Dev nD) (t : Fin cfg1.N) :
    (dat1 (F := Ideal) V c).flushed 3 t = ((cfg1.win 3).blk t).view.read (Elt Ideal) (attnArr (V c main_v5) (V c main_v6) (V c main_v7)) := by
  show (cfg1.win 3).cut (grid1.coords t) ((dat1 V c).after 3 t) = _
  rw [after1_3]
  unfold out1_3
  rw [View.canon_unit_zero hz3]
  simp only [View.ld_unit_zero (S := S1x512x1024) hz3, View.ld_unit_zero (S := S1x2048x1024) hz3]
  funext y
  obtain ⟨u, r, d, rfl⟩ : ∃ (u : Fin 1) (r : Fin 512) (d : Fin 1024), y = ix3 u r d := ⟨y 0, y 1, y 2, eq_ix3 y⟩
  obtain ⟨-, -, -, -, -, -, -, -, -, e0, e1, e2⟩ := idx_facts1 t
  have hu : u.val = 0 := by have := u.isLt; omega
  show k1_pay1 (F := Ideal) (iblk1 V c 0 t) (iblk1 V c 1 t) (iblk1 V c 2 t) (ix3 u r d)
    = attnArr (V c main_v5) (V c main_v6) (V c main_v7) (((cfg1.win 3).blk t).view.emb (ix3 u r d))
  exact attn_block_eq V c t u r d _
    (by show win1_3.index t (0 : Fin 3) * 1 + 1 * u.val = _; rw [e0, hu]; omega)
    (by show win1_3.index t (1 : Fin 3) * 512 + 1 * r.val = _; rw [e1]; omega)
    (by show win1_3.index t (2 : Fin 3) * 1024 + 1 * d.val = d.val; rw [e2]; omega)

/-- An index of the array is in point `t`'s block iff each coordinate is in the block's range on its axis. -/
theorem mem_blk1_3 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v8).slice (win1_3.rect t)).set ↔ _
  rw [View.set_slice_whole, Rect.mem_set_unit]
  exact Iff.rfl

/-- Entry `(n, p, d)` lies in the block of point `4·n + p / 512`. -/
theorem cover1_3 (i : S8x2048x1024.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  obtain ⟨t, ht⟩ : ∃ t : Fin cfg1.N, t.val = (i 0).val * 4 + (i 1).val / 512 :=
    ⟨⟨(i 0).val * 4 + (i 1).val / 512, by show (i 0).val * 4 + (i 1).val / 512 < grid1.N; rw [N_1]; omega⟩, rfl⟩
  obtain ⟨-, -, -, -, -, -, -, -, -, e0, e1, e2⟩ := idx_facts1 t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 512 ≤ (i 1).val ∧ (i 1).val < win1_3.index t (1 : Fin 3) * 512 + 512; rw [e1, ht]; omega
  | ⟨2, _⟩ => show win1_3.index t (2 : Fin 3) * 1024 ≤ (i 2).val ∧ (i 2).val < win1_3.index t (2 : Fin 3) * 1024 + 1024; rw [e2]; omega

/-- The output after the region is the attention of the three arrays it was entered with, whole. -/
theorem final1_3 (c : Dev nD) : (dat1 (F := Ideal) V c).arrAt 3 cfg1.N = attnArr (V c main_v5) (V c main_v6) (V c main_v7) :=
  (dat1 V c).arrAt_eq_of_cover 3 _ (fun t _ => flushed1_3_eq V c t) (cover1_3)

end Cert.KernelIdeal.Hand

end
-- ==== Proof.LibConcatThree.lean ====
/-
  Three pieces of one shape laid side by side, read at an index.

  Three `[n, a]` matrices joined along their columns make an `[n, c]` matrix whose column `g·a + q` (with `q < a`) is
  column `q` of piece `g`; three `[a]` vectors joined end to end make a `[c]` vector whose entry `g·a + q` is entry `q`
  of piece `g`. (Here `c` is whatever extent the concatenation was formed with: three times `a`.)
-/
import Idealize.ShloMosaic.Lib.Pipeline.Value
import Idealize.ShloMosaic.Lib.ValueIdx

noncomputable section

namespace Idealize.ShloMosaic.ConcatThree

open Idealize.ShloMosaic Idealize.ShloMosaic.ValueIdx

variable {α : Type}

/-- Three `[n, a]` matrices joined along the columns, read at row `r` and column `j = g·a + q`: piece `g` at `(r, q)`. -/
theorem cols_apply {n a c : ℕ} (x0 x1 x2 : (⟨2, ![n, a]⟩ : Shape).Idx → α)
    (h : Shape.Concatenates (([⟨⟨2, ![n, a]⟩, x0⟩, ⟨⟨2, ![n, a]⟩, x1⟩, ⟨⟨2, ![n, a]⟩, x2⟩] :
      List ((s : Shape) × (s.Idx → α))).map (·.1)) ⟨2, ![n, c]⟩ 1)
    (r : Fin n) (g : Fin 3) (q : Fin a) (j : Fin c) (hj : j.val = g.val * a + q.val) :
    concatenate ⟨2, ![n, c]⟩ 1 [⟨⟨2, ![n, a]⟩, x0⟩, ⟨⟨2, ![n, a]⟩, x1⟩, ⟨⟨2, ![n, a]⟩, x2⟩] h (ix2 r j)
      = (![x0, x1, x2] g) (ix2 r q) := by
  have hoff : ∀ b : Fin (⟨2, ![n, a]⟩ : Shape).rank, b.cast rfl ≠ (1 : Fin 2) →
      ((ix2 r q : (⟨2, ![n, a]⟩ : Shape).Idx) b).val = ((ix2 r j : (⟨2, ![n, c]⟩ : Shape).Idx) (b.cast rfl)).val := by
    intro b hb
    match b with
    | ⟨0, _⟩ => rfl
    | ⟨1, _⟩ => exact absurd rfl hb
  match g with
  | ⟨0, _⟩ =>
    exact concatenate_apply_piece 1 _ h (ix2 r j) 0 (by show 0 < 3; omega) ⟨2, ![n, a]⟩ x0 rfl rfl 0 rfl (ix2 r q) hoff
      (by show 0 + q.val = j.val; rw [hj]; simp)
  | ⟨1, _⟩ =>
    exact concatenate_apply_piece 1 _ h (ix2 r j) 1 (by show 1 < 3; omega) ⟨2, ![n, a]⟩ x1 rfl rfl (a + 0) rfl (ix2 r q) hoff
      (by show a + 0 + q.val = j.val; rw [hj]; simp)
  | ⟨2, _⟩ =>
    exact concatenate_apply_piece 1 _ h (ix2 r j) 2 (by show 2 < 3; omega) ⟨2, ![n, a]⟩ x2 rfl rfl (a + (a + 0)) rfl (ix2 r q) hoff
      (by show a + (a + 0) + q.val = j.val; rw [hj]; simp; omega)

/-- Three `[a]` vectors joined end to end, read at `j = g·a + q`: piece `g` at `q`. -/
theorem vec_apply {a c : ℕ} (x0 x1 x2 : (⟨1, ![a]⟩ : Shape).Idx → α)
    (h : Shape.Concatenates (([⟨⟨1, ![a]⟩, x0⟩, ⟨⟨1, ![a]⟩, x1⟩, ⟨⟨1, ![a]⟩, x2⟩] :
      List ((s : Shape) × (s.Idx → α))).map (·.1)) ⟨1, ![c]⟩ 0)
    (g : Fin 3) (q : Fin a) (j : Fin c) (hj : j.val = g.val * a + q.val) :
    concatenate ⟨1, ![c]⟩ 0 [⟨⟨1, ![a]⟩, x0⟩, ⟨⟨1, ![a]⟩, x1⟩, ⟨⟨1, ![a]⟩, x2⟩] h (ix1 j)
      = (![x0, x1, x2] g) (ix1 q) := by
  have hoff : ∀ b : Fin (⟨1, ![a]⟩ : Shape).rank, b.cast rfl ≠ (0 : Fin 1) →
      ((ix1 q : (⟨1, ![a]⟩ : Shape).Idx) b).val = ((ix1 j : (⟨1, ![c]⟩ : Shape).Idx) (b.cast rfl)).val := by
    intro b hb
    match b with
    | ⟨0, _⟩ => exact absurd rfl hb
  match g with
  | ⟨0, _⟩ =>
    exact concatenate_apply_piece 0 _ h (ix1 j) 0 (by show 0 < 3; omega) ⟨1, ![a]⟩ x0 rfl rfl 0 rfl (ix1 q) hoff
      (by show 0 + q.val = j.val; rw [hj]; simp)
  | ⟨1, _⟩ =>
    exact concatenate_apply_piece 0 _ h (ix1 j) 1 (by show 1 < 3; omega) ⟨1, ![a]⟩ x1 rfl rfl (a + 0) rfl (ix1 q) hoff
      (by show a + 0 + q.val = j.val; rw [hj]; simp)
  | ⟨2, _⟩ =>
    exact concatenate_apply_piece 0 _ h (ix1 j) 2 (by show 2 < 3; omega) ⟨1, ![a]⟩ x2 rfl rfl (a + (a + 0)) rfl (ix1 q) hoff
      (by show a + (a + 0) + q.val = j.val; rw [hj]; simp; omega)

end Idealize.ShloMosaic.ConcatThree

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.KernelIdealResult.lean ====
/-
  The kernel program's result as a function of its arguments. The attention region ends with the output array at the
  attention of the three arrays it was entered with; those are the three projection arrays reshaped; each projection
  array is the flattened input against a slice of the joined weights plus a slice of the joined bias; the flattening,
  the joining and the reshapes keep every element and only renumber it. Undoing the renumbering, entry `(n, p, d)` of
  the result is the specification's `attn` of the seven argument arrays.
-/
import proofs.«172001_j21887153340534_2_alg».proof.Proof.KernelIdealEntry
import proofs.«172001_j21887153340534_2_alg».proof.Proof.KernelIdealProjArrays
import proofs.«172001_j21887153340534_2_alg».proof.Proof.KernelIdealAttnArray
import proofs.«172001_j21887153340534_2_alg».proof.Proof.LibConcatThree
import proofs.«172001_j21887153340534_2_alg».proof.Proof.LibRowPairs

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable (m : (ℓ : Loc nD τ sig) → Buf (Elt Ideal) ℓ) (ρ : Dev nD → PrngReg)

/-- The three weight matrices and the three bias vectors, by slice. -/
abbrev Wg (c : Dev nD) : Fin 3 → S1024x1024.Idx → EReal :=
  ![m ((c : Thread nD τ).loc main_arg1), m ((c : Thread nD τ).loc main_arg3), m ((c : Thread nD τ).loc main_arg5)]
abbrev Bg (c : Dev nD) : Fin 3 → S1024.Idx → EReal :=
  ![m ((c : Thread nD τ).loc main_arg2), m ((c : Thread nD τ).loc main_arg4), m ((c : Thread nD τ).loc main_arg6)]

/-- Row `2048·n + p` of the `g`-th projection array is the projection of input row `(n, p)` by the `g`-th weight and bias. -/
theorem proj_entry (g : Fin 3) (c : Dev nD) (n : Fin 8) (p : Fin 2048) (k : Fin 1024) (R : Fin 16384) (hR : R.val = n.val * 2048 + p.val) :
    projArr g (V1 m ρ c main_v3) (V1 m ρ c main_v1) (V1 m ρ c main_v2) (ix2 R k)
      = Cert.AttnSpec.proj (fun e => m ((c : Thread nD τ).loc main_arg0) (ix3 n p e)) (fun e k => Wg m c g (ix2 e k)) (fun k => Bg m c g (ix1 k)) k := by
  rw [projArr_apply g _ _ _ (ix2 R k) R k rfl rfl]
  have hx : (fun e : Fin 1024 => V1 m ρ c main_v3 (ix2 R e)) = fun e => m ((c : Thread nD τ).loc main_arg0) (ix3 n p e) :=
    funext fun e => by
      rw [V1_main_v3]
      exact RowPairs.shapeCast_abc_nc_apply _ _ n p e R hR
  have hw : (fun (e : Fin 1024) (k : Fin 1024) => V1 m ρ c main_v1 (ix2 e (col g k))) = fun e k => Wg m c g (ix2 e k) :=
    funext fun e => funext fun k => by
      rw [V1_main_v1]
      exact ConcatThree.cols_apply (m ((c : Thread nD τ).loc main_arg1)) (m ((c : Thread nD τ).loc main_arg3)) (m ((c : Thread nD τ).loc main_arg5))
        concatenates_S1024x1024_S1024x1024_S1024x1024_S1024x3072_d1 e g k (col g k) (by show k.val + g.val * 1024 = g.val * 1024 + k.val; omega)
  have hb : (fun k : Fin 1024 => V1 m ρ c main_v2 (ix1 (col g k))) = fun k => Bg m c g (ix1 k) :=
    funext fun k => by
      rw [V1_main_v2]
      exact ConcatThree.vec_apply _ _ _ _ g k (col g k) (by show k.val + g.val * 1024 = g.val * 1024 + k.val; omega)
  rw [hx, hw, hb]

/-- The query, key and value arrays the attention region is entered with, at an entry. -/
theorem Q_entry (c : Dev nD) (n : Fin 8) (p : Fin 2048) (k : Fin 1024) :
    V3 m ρ c main_v5 (ix3 n p k) = Cert.AttnSpec.proj (fun e => m ((c : Thread nD τ).loc main_arg0) (ix3 n p e))
      (fun e k => m ((c : Thread nD τ).loc main_arg1) (ix2 e k)) (fun k => m ((c : Thread nD τ).loc main_arg2) (ix1 k)) k := by
  have hR : n.val * 2048 + p.val < 16384 := by have := n.isLt; have := p.isLt; omega
  rw [V3_main_v5, RowPairs.shapeCast_nc_abc_apply _ _ n p k ⟨n.val * 2048 + p.val, hR⟩ rfl]
  rw [show W2 m ρ c (Proc.devRef .tc main_v4_0) = (dat0 (V1 m ρ) c).arrAt 3 cfg0.N from W2_arr m ρ c 3, final0_3]
  exact proj_entry m ρ 0 c n p k _ rfl
theorem K_entry (c : Dev nD) (n : Fin 8) (p : Fin 2048) (k : Fin 1024) :
    V3 m ρ c main_v6 (ix3 n p k) = Cert.AttnSpec.proj (fun e => m ((c : Thread nD τ).loc main_arg0) (ix3 n p e))
      (fun e k => m ((c : Thread nD τ).loc main_arg3) (ix2 e k)) (fun k => m ((c : Thread nD τ).loc main_arg4) (ix1 k)) k := by
  have hR : n.val * 2048 + p.val < 16384 := by have := n.isLt; have := p.isLt; omega
  rw [V3_main_v6, RowPairs.shapeCast_nc_abc_apply _ _ n p k ⟨n.val * 2048 + p.val, hR⟩ rfl]
  rw [show W2 m ρ c (Proc.devRef .tc main_v4_1) = (dat0 (V1 m ρ) c).arrAt 4 cfg0.N from W2_arr m ρ c 4, final0_4]
  exact proj_entry m ρ 1 c n p k _ rfl
theorem V_entry (c : Dev nD) (n : Fin 8) (p : Fin 2048) (k : Fin 1024) :
    V3 m ρ c main_v7 (ix3 n p k) = Cert.AttnSpec.proj (fun e => m ((c : Thread nD τ).loc main_arg0) (ix3 n p e))
      (fun e k => m ((c : Thread nD τ).loc main_arg5) (ix2 e k)) (fun k => m ((c : Thread nD τ).loc main_arg6) (ix1 k)) k := by
  have hR : n.val * 2048 + p.val < 16384 := by have := n.isLt; have := p.isLt; omega
  rw [V3_main_v7, RowPairs.shapeCast_nc_abc_apply _ _ n p k ⟨n.val * 2048 + p.val, hR⟩ rfl]
  rw [show W2 m ρ c (Proc.devRef .tc main_v4_2) = (dat0 (V1 m ρ) c).arrAt 5 cfg0.N from W2_arr m ρ c 5, final0_5]
  exact proj_entry m ρ 2 c n p k _ rfl

/-- THE RESULT: entry `(n, p, d)` of the output array after the run is the specification of the seven arguments. -/
theorem result (c : Dev nD) (n : Fin 8) (p : Fin 2048) (d : Fin 1024) :
    W4 m ρ c (Proc.devRef .tc main_v8) (ix3 n p d)
      = Cert.AttnSpec.attn (fun n s e => m ((c : Thread nD τ).loc main_arg0) (ix3 n s e))
          (fun e k => m ((c : Thread nD τ).loc main_arg1) (ix2 e k)) (fun k => m ((c : Thread nD τ).loc main_arg2) (ix1 k))
          (fun e k => m ((c : Thread nD τ).loc main_arg3) (ix2 e k)) (fun k => m ((c : Thread nD τ).loc main_arg4) (ix1 k))
          (fun e k => m ((c : Thread nD τ).loc main_arg5) (ix2 e k)) (fun k => m ((c : Thread nD τ).loc main_arg6) (ix1 k)) n p d := by
  rw [show W4 m ρ c (Proc.devRef .tc main_v8) = (dat1 (V3 m ρ) c).arrAt 3 cfg1.N from W4_arr m ρ c 3, final1_3,
    attnArr_apply _ _ _ (ix3 n p d) n p d rfl rfl rfl]
  have hq : (fun e : Fin 1024 => V3 m ρ c main_v5 (ix3 n p e)) = Cert.AttnSpec.proj (fun e => m ((c : Thread nD τ).loc main_arg0) (ix3 n p e))
      (fun e k => m ((c : Thread nD τ).loc main_arg1) (ix2 e k)) (fun k => m ((c : Thread nD τ).loc main_arg2) (ix1 k)) :=
    funext fun e => Q_entry m ρ c n p e
  have hk : (fun (s : Fin 2048) (e : Fin 1024) => V3 m ρ c main_v6 (ix3 n s e)) = fun s => Cert.AttnSpec.proj (fun e => m ((c : Thread nD τ).loc main_arg0) (ix3 n s e))
      (fun e k => m ((c : Thread nD τ).loc main_arg3) (ix2 e k)) (fun k => m ((c : Thread nD τ).loc main_arg4) (ix1 k)) :=
    funext fun s => funext fun e => K_entry m ρ c n s e
  have hv : (fun (s : Fin 2048) (e : Fin 1024) => V3 m ρ c main_v7 (ix3 n s e)) = fun s => Cert.AttnSpec.proj (fun e => m ((c : Thread nD τ).loc main_arg0) (ix3 n s e))
      (fun e k => m ((c : Thread nD τ).loc main_arg5) (ix2 e k)) (fun k => m ((c : Thread nD τ).loc main_arg6) (ix1 k)) :=
    funext fun s => funext fun e => V_entry m ρ c n s e
  rw [hq, hk, hv]
  rfl

end Cert.KernelIdeal.Hand

end
-- ==== Proof.RefScale.lean ====
/-
  The attention scale.  The reference computes it on rank-0 constants as `1 / sqrt 1024`; on the extended reals the
  three f32 words involved denote `1`, `1024` and `1/32`, the square root of `1024 = 32²` is `32`, and the quotient
  `1 / 32` is the word `0x3D000000` the specification multiplies by.
-/
import Idealize.ShloMosaic.PureOps.Ideal

noncomputable section

namespace Cert.RefSpec

open Idealize.ShloMosaic

/-- The f32 word `0x3F800000` denotes `1`. -/
theorem ofBits_one : Ideal.ofBits .f32 0x3F800000#32 = ((1 : ℝ) : EReal) := by
  simp [Ideal.ofBits, Ideal.ieee, -EReal.coe_mul]; norm_num

/-- The f32 word `0x44800000` denotes `1024`. -/
theorem ofBits_1024 : Ideal.ofBits .f32 0x44800000#32 = ((1024 : ℝ) : EReal) := by
  simp [Ideal.ofBits, Ideal.ieee, -EReal.coe_mul]; norm_num

/-- The f32 word `0x3D000000` denotes `1/32 = 2⁻⁵`. -/
theorem ofBits_inv32 : Ideal.ofBits .f32 0x3D000000#32 = ((1 / 32 : ℝ) : EReal) := by
  simp [Ideal.ofBits, Ideal.ieee, -EReal.coe_mul]; norm_num

/-- `√1024 = 32`. -/
theorem sqrt_1024 : Real.sqrt 1024 = 32 := by
  rw [show (1024 : ℝ) = 32 ^ 2 by norm_num]
  exact Real.sqrt_sq (by norm_num)

/-- `1 / √1024`, computed as the reference does, is the word `0x3D000000`. -/
theorem scale_eq :
    Ideal.div (Ideal.ofBits .f32 0x3F800000#32) (Ideal.sqrt (Ideal.ofBits .f32 0x44800000#32))
      = Ideal.ofBits .f32 0x3D000000#32 := by
  rw [ofBits_one, ofBits_1024, ofBits_inv32, Ideal.sqrt_coe, if_neg (by norm_num), sqrt_1024,
    Ideal.div_coe (by norm_num), ← EReal.coe_mul, one_mul]

end Cert.RefSpec

end
-- ==== Proof.ReferenceIsSpec.lean ====
/-
  The reference program computes the attention specification.

  Read at an index, every stage of the reference is one of the specification's functions of the argument arrays, with
  the same operations in the same order: the three projections `x·W + b`, the scaled scores, the row supremum of the
  scores, the shifted exponentials, their row sum, the softmax weights, and the weighted average of the value rows.
  Three places need an argument of their own.  The scale is computed by the program as `1 / sqrt 1024` on constants and
  is the word `2⁻⁵` the specification multiplies by.  The row maximum is a fold of `max` from `-∞` over the key axis,
  hence the supremum over that axis, and taking the maximum with a broadcast `-∞` afterwards changes nothing.  The row
  sum starts from the zero word, which denotes `0`.
-/
import proofs.«172001_j21887153340534_2_alg».proof.Proof.Gen.ReferenceIdeal.Read
import proofs.«172001_j21887153340534_2_alg».proof.Proof.AttentionSpec
import proofs.«172001_j21887153340534_2_alg».proof.Proof.LibExtremeReduce
import proofs.«172001_j21887153340534_2_alg».proof.Proof.RefScale

noncomputable section

open scoped BigOperators

namespace Cert.RefSpec

open Idealize.ShloMosaic Idealize.ShloMosaic.ValueIdx Cert.ReferenceIdeal Cert.ReferenceIdeal.Read Cert.AttnSpec

/-! ## The projections -/

section Proj

variable (x0 : (⟨S8x2048x1024, .f32⟩ : BufTy).Contents (Elt Ideal))

/-- The query projection at `(n, s, k)`: input row `(n, s)` against column `k` of the first weight, plus its bias. -/
theorem v3_apply (x1 : (⟨S1024x1024, .f32⟩ : BufTy).Contents (Elt Ideal)) (x2 : (⟨S1024, .f32⟩ : BufTy).Contents (Elt Ideal))
    (n : Fin 8) (s : Fin 2048) (k : Fin 1024) :
    val_main_v3 (F := Ideal) x0 x1 x2 (ix3 n s k)
      = proj (fun e => x0 (ix3 n s e)) (fun e k => x1 (ix2 e k)) (fun k => x2 (ix1 k)) k := by
  rw [val_main_v3_apply, val_main_v0_apply, val_main_v2_apply, val_main_v1_apply, Ideal.addf_def]
  have eb : idx_main_v1 (idx_main_v2 (ix3 n s k)) = ix1 k :=
    funext fun a => Fin.ext (by match a with | ⟨0, _⟩ => rfl)
  rw [eb]
  refine congrArg (· + x2 (ix1 k)) (Finset.sum_congr rfl fun e _ => ?_)
  have el : lidx_main_v0 (ix3 n s k) e = ix3 n s e :=
    funext fun a => Fin.ext (by match a with | ⟨0, _⟩ => rfl | ⟨1, _⟩ => rfl | ⟨2, _⟩ => rfl)
  have er : ridx_main_v0 (ix3 n s k) e = ix2 e k :=
    funext fun a => Fin.ext (by match a with | ⟨0, _⟩ => rfl | ⟨1, _⟩ => rfl)
  rw [el, er]

/-- The key projection at `(n, s, k)`. -/
theorem v7_apply (x3 : (⟨S1024x1024, .f32⟩ : BufTy).Contents (Elt Ideal)) (x4 : (⟨S1024, .f32⟩ : BufTy).Contents (Elt Ideal))
    (n : Fin 8) (s : Fin 2048) (k : Fin 1024) :
    val_main_v7 (F := Ideal) x0 x3 x4 (ix3 n s k)
      = proj (fun e => x0 (ix3 n s e)) (fun e k => x3 (ix2 e k)) (fun k => x4 (ix1 k)) k := by
  rw [val_main_v7_apply, val_main_v4_apply, val_main_v6_apply, val_main_v5_apply, Ideal.addf_def]
  have eb : idx_main_v5 (idx_main_v6 (ix3 n s k)) = ix1 k :=
    funext fun a => Fin.ext (by match a with | ⟨0, _⟩ => rfl)
  rw [eb]
  refine congrArg (· + x4 (ix1 k)) (Finset.sum_congr rfl fun e _ => ?_)
  have el : lidx_main_v4 (ix3 n s k) e = ix3 n s e :=
    funext fun a => Fin.ext (by match a with | ⟨0, _⟩ => rfl | ⟨1, _⟩ => rfl | ⟨2, _⟩ => rfl)
  have er : ridx_main_v4 (ix3 n s k) e = ix2 e k :=
    funext fun a => Fin.ext (by match a with | ⟨0, _⟩ => rfl | ⟨1, _⟩ => rfl)
  rw [el, er]

/-- The value projection at `(n, s, k)`. -/
theorem v11_apply (x5 : (⟨S1024x1024, .f32⟩ : BufTy).Contents (Elt Ideal)) (x6 : (⟨S1024, .f32⟩ : BufTy).Contents (Elt Ideal))
    (n : Fin 8) (s : Fin 2048) (k : Fin 1024) :
    val_main_v11 (F := Ideal) x0 x5 x6 (ix3 n s k)
      = proj (fun e => x0 (ix3 n s e)) (fun e k => x5 (ix2 e k)) (fun k => x6 (ix1 k)) k := by
  rw [val_main_v11_apply, val_main_v8_apply, val_main_v10_apply, val_main_v9_apply, Ideal.addf_def]
  have eb : idx_main_v9 (idx_main_v10 (ix3 n s k)) = ix1 k :=
    funext fun a => Fin.ext (by match a with | ⟨0, _⟩ => rfl)
  rw [eb]
  refine congrArg (· + x6 (ix1 k)) (Finset.sum_congr rfl fun e _ => ?_)
  have el : lidx_main_v8 (ix3 n s k) e = ix3 n s e :=
    funext fun a => Fin.ext (by match a with | ⟨0, _⟩ => rfl | ⟨1, _⟩ => rfl | ⟨2, _⟩ => rfl)
  have er : ridx_main_v8 (ix3 n s k) e = ix2 e k :=
    funext fun a => Fin.ext (by match a with | ⟨0, _⟩ => rfl | ⟨1, _⟩ => rfl)
  rw [el, er]

end Proj

/-! ## Scores, their row supremum, the softmax weights -/

section Softmax

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-- The query row of batch entry `n` at position `p`. -/
abbrev qrow (n : Fin 8) (p : Fin 2048) : Fin 1024 → EReal :=
  proj (fun e => x0 (ix3 n p e)) (fun e k => x1 (ix2 e k)) (fun k => x2 (ix1 k))

/-- The key rows of batch entry `n`. -/
abbrev krows (n : Fin 8) : Fin 2048 → Fin 1024 → EReal :=
  fun s => proj (fun e => x0 (ix3 n s e)) (fun e k => x3 (ix2 e k)) (fun k => x4 (ix1 k))

/-- The scale the program computes, read at any index of its broadcast. -/
theorem v15_apply (i : S8x2048x2048.Idx) : val_main_v15 (F := Ideal) i = scale := by
  rw [val_main_v15_apply, val_main_v13_apply, val_main_v12_apply, val_main_cst_0_apply, val_main_cst_apply,
    Ideal.hostDivf_def, Ideal.hostUnary_sqrt_def, Ideal.ofBits_def, Ideal.ofBits_def, scale_eq]
  rfl

/-- The scaled score of query `(n, p)` against key `s`. -/
theorem v16_apply (n : Fin 8) (p s : Fin 2048) :
    val_main_v16 (F := Ideal) x0 x1 x2 x3 x4 (ix3 n p s) = score (qrow x0 x1 x2 n p) (krows x0 x3 x4 n) s := by
  rw [val_main_v16_apply, val_main_v14_apply, v15_apply, Ideal.mulf_def]
  refine congrArg (· * scale) (Finset.sum_congr rfl fun k _ => ?_)
  have el : lidx_main_v14 (ix3 n p s) k = ix3 n p k :=
    funext fun a => Fin.ext (by match a with | ⟨0, _⟩ => rfl | ⟨1, _⟩ => rfl | ⟨2, _⟩ => rfl)
  have er : ridx_main_v14 (ix3 n p s) k = ix3 n s k :=
    funext fun a => Fin.ext (by match a with | ⟨0, _⟩ => rfl | ⟨1, _⟩ => rfl | ⟨2, _⟩ => rfl)
  rw [el, er, v3_apply, v7_apply]

/-- The row maximum: the fold of `max` from `-∞` over the keys is the supremum of the scores of query `(n, p)`. -/
theorem v17_apply (n : Fin 8) (p : Fin 2048) :
    val_main_v17 (F := Ideal) x0 x1 x2 x3 x4 (ix2 n p)
      = ⨆ s : Fin 2048, score (qrow x0 x1 x2 n p) (krows x0 x3 x4 n) s := by
  have hy : ∀ s : Fin 2048, val_main_v16 (F := Ideal) x0 x1 x2 x3 x4 (ix3 n p s)
      = score (qrow x0 x1 x2 n p) (krows x0 x3 x4 n) s := v16_apply x0 x1 x2 x3 x4 n p
  unfold val_main_v17 val_main_cst_1
  generalize val_main_v16 (F := Ideal) x0 x1 x2 x3 x4 = y at hy ⊢
  have h : S8x2048x2048.Reduces [2] S8x2048 := by decide
  refine (ExtremeReduce.hostReduce_max_single y Facts₀.reducesTo_S8x2048x2048_S8x2048_d2 h Facts₀.h_S_ (ix2 n p)).trans ?_
  refine iSup_congr fun s => ?_
  refine Eq.trans (congrArg y (funext fun a => Fin.ext ?_)) (hy s)
  match a with
  | ⟨0, _⟩ => rfl
  | ⟨1, _⟩ => rfl
  | ⟨2, _⟩ => rfl

/-- Taking the maximum with a broadcast `-∞` leaves the row supremum as it is. -/
theorem v19_apply (n : Fin 8) (p : Fin 2048) :
    val_main_v19 (F := Ideal) x0 x1 x2 x3 x4 (ix2 n p)
      = ⨆ s : Fin 2048, score (qrow x0 x1 x2 n p) (krows x0 x3 x4 n) s := by
  rw [val_main_v19_apply, val_main_v18_apply, val_main_cst_2_apply, v17_apply, Ideal.maximumf_def, Ideal.ofBits_def,
    ExtremeReduce.ofBits_negInf]
  exact max_eq_right bot_le

/-- The shifted exponential of the score of query `(n, p)` against key `s`. -/
theorem v23_apply (n : Fin 8) (p s : Fin 2048) :
    val_main_v23 (F := Ideal) x0 x1 x2 x3 x4 (ix3 n p s) = expo (qrow x0 x1 x2 n p) (krows x0 x3 x4 n) s := by
  rw [val_main_v23_apply, val_main_v22_apply, val_main_v21_apply, val_main_v20_apply, v16_apply, Ideal.hostUnary_exp_def,
    Ideal.subf_def]
  have e : idx_main_v20 (idx_main_v21 (ix3 n p s)) = ix2 n p :=
    funext fun a => Fin.ext (by match a with | ⟨0, _⟩ => rfl | ⟨1, _⟩ => rfl)
  rw [e, v19_apply]
  rfl

/-- The row sum of the shifted exponentials of query `(n, p)`: the zero word plus the sum over the keys. -/
theorem v24_apply (n : Fin 8) (p : Fin 2048) :
    val_main_v24 (F := Ideal) x0 x1 x2 x3 x4 (ix2 n p)
      = ∑ s : Fin 2048, expo (qrow x0 x1 x2 n p) (krows x0 x3 x4 n) s := by
  rw [val_main_v24_apply, val_main_cst_3_apply, Ideal.ofBits_def, Ideal.ofBits_zero_f32, zero_add]
  refine Finset.sum_congr rfl fun s _ => ?_
  have e : idx_main_v24 (ix2 n p) s = ix3 n p s :=
    funext fun a => Fin.ext (by match a with | ⟨0, _⟩ => rfl | ⟨1, _⟩ => rfl | ⟨2, _⟩ => rfl)
  rw [e, v23_apply]

/-- The softmax weight of key `s` for query `(n, p)`. -/
theorem v27_apply (n : Fin 8) (p s : Fin 2048) :
    val_main_v27 (F := Ideal) x0 x1 x2 x3 x4 (ix3 n p s) = weight (qrow x0 x1 x2 n p) (krows x0 x3 x4 n) s := by
  rw [val_main_v27_apply, val_main_v26_apply, val_main_v25_apply, v23_apply, Ideal.hostDivf_def]
  have e : idx_main_v25 (idx_main_v26 (ix3 n p s)) = ix2 n p :=
    funext fun a => Fin.ext (by match a with | ⟨0, _⟩ => rfl | ⟨1, _⟩ => rfl)
  rw [e, v24_apply]
  rfl

end Softmax

/-! ## The whole layer -/

/-- The reference's result at `(n, p, d)` is the attention specification there. -/
theorem ref_eq_spec
    (x0 : (⟨S8x2048x1024, .f32⟩ : BufTy).Contents (Elt Ideal)) (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (n : Fin 8) (p : Fin 2048) (d : Fin 1024) :
    Cert.ReferenceIdeal.Read.val_main_v28 (F := Ideal) x0 x1 x2 x3 x4 x5 x6 (ix3 n p d)
      = Cert.AttnSpec.attn (fun n s e => x0 (ix3 n s e)) (fun e k => x1 (ix2 e k)) (fun k => x2 (ix1 k))
          (fun e k => x3 (ix2 e k)) (fun k => x4 (ix1 k)) (fun e k => x5 (ix2 e k)) (fun k => x6 (ix1 k)) n p d := by
  rw [val_main_v28_apply]
  show _ = ∑ s : Fin 2048, weight (qrow x0 x1 x2 n p) (krows x0 x3 x4 n) s
      * proj (fun e => x0 (ix3 n s e)) (fun e k => x5 (ix2 e k)) (fun k => x6 (ix1 k)) d
  refine Finset.sum_congr rfl fun s _ => ?_
  have el : lidx_main_v28 (ix3 n p d) s = ix3 n p s :=
    funext fun a => Fin.ext (by match a with | ⟨0, _⟩ => rfl | ⟨1, _⟩ => rfl | ⟨2, _⟩ => rfl)
  have er : ridx_main_v28 (ix3 n p d) s = ix3 n s d :=
    funext fun a => Fin.ext (by match a with | ⟨0, _⟩ => rfl | ⟨1, _⟩ => rfl | ⟨2, _⟩ => rfl)
  rw [el, er, v27_apply, v11_apply]

end Cert.RefSpec

end
-- ==== Proof.lean ====
/-
  The certificate's claim. Both the kernel program as printed and its reading on the extended reals run to the end
  without a fault and leave their arguments unchanged: the two host stretches and the two kernel regions are chained
  as segments, each region's body run once on symbolic buffers. The reference is a straight line of host operations.
  The idealisation rewrote nothing, so there is nothing to preserve. On the extended reals the kernel program's result
  is single-head attention of its seven arguments, entry by entry — projections by the joined weights, scores scaled
  by 2⁻⁵, a softmax shifted by the row supremum, the weighted average of the value rows — and so is the reference's,
  which computes the same operations in the same order on the unjoined weights with the scale as 1/√1024.
-/
import proofs.«172001_j21887153340534_2_alg».proof.Defs
import proofs.«172001_j21887153340534_2_alg».proof.Proof.Gen.Kernel
import proofs.«172001_j21887153340534_2_alg».proof.Proof.Gen.KernelIdeal
import proofs.«172001_j21887153340534_2_alg».proof.Proof.Gen.ReferenceIdeal
import proofs.«172001_j21887153340534_2_alg».proof.Proof.Gen.Pre_finite_inputs
import proofs.«172001_j21887153340534_2_alg».proof.Proof.Gen.ReferenceIdeal.Run
import proofs.«172001_j21887153340534_2_alg».proof.Proof.Gen.ReferenceIdeal.Read
import proofs.«172001_j21887153340534_2_alg».proof.Proof.KernelRun
import proofs.«172001_j21887153340534_2_alg».proof.Proof.KernelIdealRun
import proofs.«172001_j21887153340534_2_alg».proof.Proof.KernelIdealResult
import proofs.«172001_j21887153340534_2_alg».proof.Proof.ReferenceIsSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's result, from memories agreeing on the arguments, is the kernel program's output array. -/
theorem results_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v28 m' c = Cert.KernelIdeal.Hand.W4 m ρ c (Proc.devRef .tc Cert.KernelIdeal.main_v8) := by
  obtain ⟨h0, h1, h2, h3, h4, h5, h6⟩ := hagree
  rw [Cert.ReferenceIdeal.Read.val_main_v28_eq, h0, h1, h2, h3, h4, h5, h6]
  funext i
  obtain ⟨n, p, d, rfl⟩ : ∃ (n : Fin 8) (p : Fin 2048) (d : Fin 1024), i = ix3 n p d := ⟨i 0, i 1, i 2, eq_ix3 i⟩
  rw [Cert.RefSpec.ref_eq_spec]
  exact (Cert.KernelIdeal.Hand.result m ρ c n p d).symm

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W4 m ρ c (Proc.devRef .tc Cert.KernelIdeal.main_v8), ?_, ?_⟩
  · exact (θ_run Cert.KernelIdeal.defs _ _).mono (fun r h c =>
      ⟨h c _ (Cert.KernelIdeal.Hand.mem_uc Cert.KernelIdeal.main_v8 (by decide)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c)⟩)
      (Cert.KernelIdeal.Hand.run_all m ρ)
  · exact (θ_run Cert.ReferenceIdeal.defs _ _).mono (fun _ h c => ⟨(h c).1.trans (results_agree m ρ m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
